-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32000 : Shape := ⟨2, ![4096, 32000]⟩
abbrev S_ : Shape := ⟨0, ![]⟩

class Facts : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel

variable [Facts]

def fn {F : FTy → Type} [FloatOps F] (main_arg0 : FVec F S4096x32000 .f32) (main_arg1 : IVec S4096x32000 1) : IVec S_ 1 :=
  let main_v0 : FVec F S4096x32000 .f32 := Host.absf main_arg0
  let main_cst : FVec F S_ .f32 := constant S_ .f32 0x7F800000#32
  let main_v1 : FVec F S4096x32000 .f32 := broadcastInDim S4096x32000 ![] bcast_S_S4096x32000 main_cst
  let main_v2 : IVec S4096x32000 1 := cmpf .olt main_v0 main_v1
  let main_c : IVec S_ 1 := constantI S_ 1 1#1
  let main_v3 : IVec S_ 1 := (fun x v => Host.reduce IntOp.andi x v reducesTo_S4096x32000_S_d0_1 h_S_) main_v2 main_c
  main_v3
-- ==== Kernel.lean ====
abbrev S4096x32000 : Shape := ⟨2, ![4096, 32000]⟩
abbrev S4096x1 : Shape := ⟨2, ![4096, 1]⟩
abbrev S128x32000 : Shape := ⟨2, ![128, 32000]⟩
abbrev S128x1 : Shape := ⟨2, ![128, 1]⟩
abbrev S128 : Shape := ⟨1, ![128]⟩
abbrev S4096 : Shape := ⟨1, ![4096]⟩
abbrev S_ : Shape := ⟨0, ![]⟩

abbrev nBuf : Space → Nat
  | .hbm => 55
  | .vmem => 12
  | .smem => 0
  | _ => 0

abbrev bufTy : (tb : Table) → Fin (tcTables nBuf tb) → BufTy
  | .hbm, ⟨0, _⟩ => ⟨S4096x32000, .f32⟩
  | .hbm, ⟨1, _⟩ => ⟨S4096x32000, .i1⟩
  | .hbm, ⟨2, _⟩ => ⟨S4096x32000, .i32⟩
  | .hbm, ⟨3, _⟩ => ⟨S4096x1, .f32⟩
  | .hbm, ⟨4, _⟩ => ⟨S4096x1, .f32⟩
  | .hbm, ⟨5, _⟩ => ⟨S4096x1, .f32⟩
  | .hbm, ⟨6, _⟩ => ⟨S4096x1, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .i1⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S_, .f32⟩
  | .hbm, ⟨26, _⟩ => ⟨S4096, .f32⟩
  | .hbm, ⟨27, _⟩ => ⟨S4096, .i1⟩
  | .hbm, ⟨28, _⟩ => ⟨S_, .f32⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S4096, .f32⟩
  | .hbm, ⟨40, _⟩ => ⟨S4096, .f32⟩
  | .hbm, ⟨41, _⟩ => ⟨S4096, .i1⟩
  | .hbm, ⟨42, _⟩ => ⟨S4096, .f32⟩
  | .hbm, ⟨43, _⟩ => ⟨S4096, .f32⟩
  | .hbm, ⟨44, _⟩ => ⟨S4096, .f32⟩
  | .hbm, ⟨45, _⟩ => ⟨S4096, .f32⟩
  | .hbm, ⟨46, _⟩ => ⟨S4096, .f32⟩
  | .hbm, ⟨47, _⟩ => ⟨S4096, .f32⟩
  | .hbm, ⟨48, _⟩ => ⟨S4096, .f32⟩
  | .hbm, ⟨49, _⟩ => ⟨S4096, .f32⟩
  | .hbm, ⟨50, _⟩ => ⟨S4096, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .local _ .vmem, ⟨0, _⟩ => ⟨S128x32000, .f32⟩
  | .local _ .vmem, ⟨1, _⟩ => ⟨S128x32000, .f32⟩
  | .local _ .vmem, ⟨2, _⟩ => ⟨S128x32000, .i32⟩
  | .local _ .vmem, ⟨3, _⟩ => ⟨S128x32000, .i32⟩
  | .local _ .vmem, ⟨4, _⟩ => ⟨S128x1, .f32⟩
  | .local _ .vmem, ⟨5, _⟩ => ⟨S128x1, .f32⟩
  | .local _ .vmem, ⟨6, _⟩ => ⟨S128x1, .f32⟩
  | .local _ .vmem, ⟨7, _⟩ => ⟨S128x1, .f32⟩
  | .local _ .vmem, ⟨8, _⟩ => ⟨S128x1, .f32⟩
  | .local _ .vmem, ⟨9, _⟩ => ⟨S128x1, .f32⟩
  | .local _ .vmem, ⟨10, _⟩ => ⟨S128x1, .f32⟩
  | .local _ .vmem, ⟨11, _⟩ => ⟨S128x1, .f32⟩
  | _, _ => ⟨S4096x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_call2_v0 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_call3_v0 : Ref sig .tc := ⟨.hbm, 33, rfl⟩
abbrev main_v19 : Ref sig .tc := ⟨.hbm, 34, rfl⟩
abbrev main_v20 : Ref sig .tc := ⟨.hbm, 35, rfl⟩
abbrev main_call4_cst : Ref sig .tc := ⟨.hbm, 36, rfl⟩
abbrev main_call4_v0 : Ref sig .tc := ⟨.hbm, 37, rfl⟩
abbrev main_call4_v1 : Ref sig .tc := ⟨.hbm, 38, rfl⟩
abbrev main_call4_v2 : Ref sig .tc := ⟨.hbm, 39, rfl⟩
abbrev main_call4_v3 : Ref sig .tc := ⟨.hbm, 40, rfl⟩
abbrev main_call4_v4 : Ref sig .tc := ⟨.hbm, 41, rfl⟩
abbrev main_call4_v5 : Ref sig .tc := ⟨.hbm, 42, rfl⟩
abbrev main_call4_v6 : Ref sig .tc := ⟨.hbm, 43, rfl⟩
abbrev main_call4_v7 : Ref sig .tc := ⟨.hbm, 44, rfl⟩
abbrev main_call4_v8 : Ref sig .tc := ⟨.hbm, 45, rfl⟩
abbrev main_call4_v9 : Ref sig .tc := ⟨.hbm, 46, rfl⟩
abbrev main_call4_v10 : Ref sig .tc := ⟨.hbm, 47, rfl⟩
abbrev main_call4_v11 : Ref sig .tc := ⟨.hbm, 48, rfl⟩
abbrev main_v21 : Ref sig .tc := ⟨.hbm, 49, rfl⟩
abbrev main_v22 : Ref sig .tc := ⟨.hbm, 50, rfl⟩
abbrev main_cst_6 : Ref sig .tc := ⟨.hbm, 51, rfl⟩
abbrev main_v23 : Ref sig .tc := ⟨.hbm, 52, rfl⟩
abbrev main_cst_7 : Ref sig .tc := ⟨.hbm, 53, rfl⟩
abbrev main_v24 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  natLt_1_32 : 1 < 32
  inb_S128x32000_S128x32000_0_0 : ∀ a, (![0, 0] : Fin 2 → Nat) a + S128x32000.size a ≤ S128x32000.size a
  h_S128x32000 : 0 < S128x32000.numel
  reduces_S128x32000_S128 : S128x32000.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  shapeCasts_S4096x1_S4096 : S4096x1.ShapeCasts S4096
  bcast_S_S4096 : S_.BroadcastsInDim S4096 (![] : Fin 0 → Fin S4096.rank)
  reducesTo_S4096_S_d0 : S4096.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32000.size a ≤ S4096x32000.size a
  hwx0_0 : ∀ i : grid0.Coords, EltTy.bits .f32 = 32 ∨ (Rect.block (s := S4096x32000) S128x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x32000.size a ≤ S4096x32000.size a
  hwx0_1 : ∀ i : grid0.Coords, EltTy.bits .i32 = 32 ∨ (Rect.block (s := S4096x32000) S128x32000.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S4096x1.size a
  hwx0_2 : ∀ i : grid0.Coords, EltTy.bits .f32 = 32 ∨ (Rect.block (s := S4096x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S4096x1.size a
  hwx0_3 : ∀ i : grid0.Coords, EltTy.bits .f32 = 32 ∨ (Rect.block (s := S4096x1) S128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S4096x1.size a
  hwx0_4 : ∀ i : grid0.Coords, EltTy.bits .f32 = 32 ∨ (Rect.block (s := S4096x1) S128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S4096x1.size a
  hwx0_5 : ∀ i : grid0.Coords, EltTy.bits .f32 = 32 ∨ (Rect.block (s := S4096x1) S128x1.size (cc0_transform_5 i) (hinb0_5 i)).WholeWords (EltTy.packing .f32)

variable [Facts₀]

abbrev win0_0 : Pipeline.Window sig grid0 :=
  Pipeline.Window.ofSpec (Memref.whole main_arg0) S128x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x32000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S128x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S128x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S128x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_3) S128x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x32000 : Shape := ⟨2, ![4096, 32000]⟩
abbrev S_ : Shape := ⟨0, ![]⟩
abbrev S4096 : Shape := ⟨1, ![4096]⟩
abbrev S4096x1 : Shape := ⟨2, ![4096, 1]⟩

abbrev nBuf : Space → Nat
  | .hbm => 81
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S4096x32000, .i1⟩
  | .hbm, ⟨2, _⟩ => ⟨S4096x32000, .i32⟩
  | .hbm, ⟨3, _⟩ => ⟨S_, .i32⟩
  | .hbm, ⟨4, _⟩ => ⟨S4096, .i32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S4096x1, .i1⟩
  | .hbm, ⟨9, _⟩ => ⟨S_, .i1⟩
  | .hbm, ⟨10, _⟩ => ⟨S4096x32000, .i1⟩
  | .hbm, ⟨11, _⟩ => ⟨S4096x32000, .i1⟩
  | .hbm, ⟨12, _⟩ => ⟨S4096x32000, .i1⟩
  | .hbm, ⟨13, _⟩ => ⟨S_, .i32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .f32⟩
  | .hbm, ⟨18, _⟩ => ⟨S_, .f32⟩
  | .hbm, ⟨19, _⟩ => ⟨S4096x32000, .f32⟩
  | .hbm, ⟨20, _⟩ => ⟨S4096x32000, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S_, .i32⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S_, .f32⟩
  | .hbm, ⟨32, _⟩ => ⟨S4096x32000, .f32⟩
  | .hbm, ⟨33, _⟩ => ⟨S4096x32000, .f32⟩
  | .hbm, ⟨34, _⟩ => ⟨S4096x32000, .f32⟩
  | .hbm, ⟨35, _⟩ => ⟨S4096x32000, .f32⟩
  | .hbm, ⟨36, _⟩ => ⟨S4096x32000, .i1⟩
  | .hbm, ⟨37, _⟩ => ⟨S4096x32000, .f32⟩
  | .hbm, ⟨38, _⟩ => ⟨S4096x32000, .f32⟩
  | .hbm, ⟨39, _⟩ => ⟨S4096x32000, .f32⟩
  | .hbm, ⟨40, _⟩ => ⟨S4096x32000, .f32⟩
  | .hbm, ⟨41, _⟩ => ⟨S4096x32000, .f32⟩
  | .hbm, ⟨42, _⟩ => ⟨S4096x32000, .f32⟩
  | .hbm, ⟨43, _⟩ => ⟨S4096x32000, .f32⟩
  | .hbm, ⟨44, _⟩ => ⟨S4096x32000, .f32⟩
  | .hbm, ⟨45, _⟩ => ⟨S_, .f32⟩
  | .hbm, ⟨46, _⟩ => ⟨S4096x32000, .f32⟩
  | .hbm, ⟨47, _⟩ => ⟨S4096x32000, .f32⟩
  | .hbm, ⟨48, _⟩ => ⟨S_, .f32⟩
  | .hbm, ⟨49, _⟩ => ⟨S4096, .f32⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S_, .i32⟩
  | .hbm, ⟨54, _⟩ => ⟨S4096, .i32⟩
  | .hbm, ⟨55, _⟩ => ⟨S4096, .i32⟩
  | .hbm, ⟨56, _⟩ => ⟨S4096, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S4096, .f32⟩
  | .hbm, ⟨62, _⟩ => ⟨S_, .f32⟩
  | .hbm, ⟨63, _⟩ => ⟨S4096, .f32⟩
  | .hbm, ⟨64, _⟩ => ⟨S4096, .f32⟩
  | .hbm, ⟨65, _⟩ => ⟨S4096, .f32⟩
  | .hbm, ⟨66, _⟩ => ⟨S4096, .f32⟩
  | .hbm, ⟨67, _⟩ => ⟨S4096, .i1⟩
  | .hbm, ⟨68, _⟩ => ⟨S4096, .f32⟩
  | .hbm, ⟨69, _⟩ => ⟨S4096, .f32⟩
  | .hbm, ⟨70, _⟩ => ⟨S4096, .f32⟩
  | .hbm, ⟨71, _⟩ => ⟨S4096, .f32⟩
  | .hbm, ⟨72, _⟩ => ⟨S4096, .f32⟩
  | .hbm, ⟨73, _⟩ => ⟨S4096, .f32⟩
  | .hbm, ⟨74, _⟩ => ⟨S4096, .f32⟩
  | .hbm, ⟨75, _⟩ => ⟨S4096, .f32⟩
  | .hbm, ⟨76, _⟩ => ⟨S4096, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_c_2 : Ref sig .tc := ⟨.hbm, 13, rfl⟩
abbrev main_call1_v0 : Ref sig .tc := ⟨.hbm, 14, rfl⟩
abbrev main_call1_v1 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_call2_v0 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_c_4 : Ref sig .tc := ⟨.hbm, 24, rfl⟩
abbrev main_call3_v0 : Ref sig .tc := ⟨.hbm, 25, rfl⟩
abbrev main_call3_v1 : Ref sig .tc := ⟨.hbm, 26, rfl⟩
abbrev main_v11 : Ref sig .tc := ⟨.hbm, 27, rfl⟩
abbrev main_c_5 : Ref sig .tc := ⟨.hbm, 28, rfl⟩
abbrev main_v12 : Ref sig .tc := ⟨.hbm, 29, rfl⟩
abbrev main_v13 : Ref sig .tc := ⟨.hbm, 30, rfl⟩
abbrev main_call4_cst : Ref sig .tc := ⟨.hbm, 31, rfl⟩
abbrev main_call4_v0 : Ref sig .tc := ⟨.hbm, 32, rfl⟩
abbrev main_call4_v1 : Ref sig .tc := ⟨.hbm, 33, rfl⟩
abbrev main_call4_v2 : Ref sig .tc := ⟨.hbm, 34, rfl⟩
abbrev main_call4_v3 : Ref sig .tc := ⟨.hbm, 35, rfl⟩
abbrev main_call4_v4 : Ref sig .tc := ⟨.hbm, 36, rfl⟩
abbrev main_call4_v5 : Ref sig .tc := ⟨.hbm, 37, rfl⟩
abbrev main_call4_v6 : Ref sig .tc := ⟨.hbm, 38, rfl⟩
abbrev main_call4_v7 : Ref sig .tc := ⟨.hbm, 39, rfl⟩
abbrev main_call4_v8 : Ref sig .tc := ⟨.hbm, 40, rfl⟩
abbrev main_call4_v9 : Ref sig .tc := ⟨.hbm, 41, rfl⟩
abbrev main_call4_v10 : Ref sig .tc := ⟨.hbm, 42, rfl⟩
abbrev main_call4_v11 : Ref sig .tc := ⟨.hbm, 43, rfl⟩
abbrev main_v14 : Ref sig .tc := ⟨.hbm, 44, rfl⟩
abbrev main_cst_6 : Ref sig .tc := ⟨.hbm, 45, rfl⟩
abbrev main_call5_v0 : Ref sig .tc := ⟨.hbm, 46, rfl⟩
abbrev main_v15 : Ref sig .tc := ⟨.hbm, 47, rfl⟩
abbrev main_cst_7 : Ref sig .tc := ⟨.hbm, 48, rfl⟩
abbrev main_v16 : Ref sig .tc := ⟨.hbm, 49, rfl⟩
abbrev main_c_8 : Ref sig .tc := ⟨.hbm, 50, rfl⟩
abbrev main_v17 : Ref sig .tc := ⟨.hbm, 51, rfl⟩
abbrev main_v18 : Ref sig .tc := ⟨.hbm, 52, rfl⟩
abbrev main_c_9 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_cst_10 : Ref sig .tc := ⟨.hbm, 58, rfl⟩
abbrev main_call6_v0 : Ref sig .tc := ⟨.hbm, 59, rfl⟩
abbrev main_v23 : Ref sig .tc := ⟨.hbm, 60, rfl⟩
abbrev main_v24 : Ref sig .tc := ⟨.hbm, 61, rfl⟩
abbrev main_call7_cst : Ref sig .tc := ⟨.hbm, 62, rfl⟩
abbrev main_call7_v0 : Ref sig .tc := ⟨.hbm, 63, rfl⟩
abbrev main_call7_v1 : Ref sig .tc := ⟨.hbm, 64, rfl⟩
abbrev main_call7_v2 : Ref sig .tc := ⟨.hbm, 65, rfl⟩
abbrev main_call7_v3 : Ref sig .tc := ⟨.hbm, 66, rfl⟩
abbrev main_call7_v4 : Ref sig .tc := ⟨.hbm, 67, rfl⟩
abbrev main_call7_v5 : Ref sig .tc := ⟨.hbm, 68, rfl⟩
abbrev main_call7_v6 : Ref sig .tc := ⟨.hbm, 69, rfl⟩
abbrev main_call7_v7 : Ref sig .tc := ⟨.hbm, 70, rfl⟩
abbrev main_call7_v8 : Ref sig .tc := ⟨.hbm, 71, rfl⟩
abbrev main_call7_v9 : Ref sig .tc := ⟨.hbm, 72, rfl⟩
abbrev main_call7_v10 : Ref sig .tc := ⟨.hbm, 73, rfl⟩
abbrev main_call7_v11 : Ref sig .tc := ⟨.hbm, 74, rfl⟩
abbrev main_v25 : Ref sig .tc := ⟨.hbm, 75, rfl⟩
abbrev main_v26 : Ref sig .tc := ⟨.hbm, 76, rfl⟩
abbrev main_cst_11 : Ref sig .tc := ⟨.hbm, 77, rfl⟩
abbrev main_v27 : Ref sig .tc := ⟨.hbm, 78, rfl⟩
abbrev main_cst_12 : Ref sig .tc := ⟨.hbm, 79, rfl⟩
abbrev main_v28 : Ref sig .tc := ⟨.hbm, 80, rfl⟩

abbrev nD : Nat := 1
abbrev τ : Topo := Topo.v7x

variable {F : FTy → Type} [FloatOps F]

class Facts₀ : Prop where
  natLt_1_32 : 1 < 32
  reducesTo_S4096x32000_S4096_d1 : S4096x32000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  bcast_S_S4096x32000 : S_.BroadcastsInDim S4096x32000 (![] : Fin 0 → Fin S4096x32000.rank)
  reducesTo_S4096_S_d0 : S4096.ReducesTo [0] S_

variable [Facts₀]

class Facts : Prop extends Facts₀ where

variable [Facts]
-- ==== Proof.LibColumnCast.lean ====
/-
  A vector kept as a column, read at an index given by coordinates: an [a] array cast to [a, 1] reads, at (r, u), the
  entry r, whatever the unit coordinate u. (The keepdims form of a per-row reduction's result; the row counterpart
  [a] → [1, a] is the library's, and this is stated in the same style.)
-/
import Idealize.ShloMosaic.Lib.Pipeline.Value
import Idealize.ShloMosaic.Lib.ValueIdx

namespace Cert.ColumnCast

open Idealize.ShloMosaic Idealize.ShloMosaic.ValueIdx

variable {α : Type}

/-- An `[a]` array cast to `[a, 1]` reads, at `(r, u)`, the operand at `r`: the two indices have the same row-major
    position, `r · 1 + 0`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end Cert.ColumnCast
-- ==== Proof.RowLoss.lean ====
/-
  The loss of one row, on the extended reals.

  A row has 32000 logits `x k` and a one-bit candidate mark `p k` per class. With `N` the number of marked classes:
  if `N = 0` every class counts as a candidate, the positive score is the mean of all logits and there is no negative
  term; otherwise the positive score is the mean of the marked logits and the negative term is the sum of
  `softplus (x k)` over the unmarked classes divided by `max (32000 - N) 1` when `32000 - N > 0`. The row's loss is
  `softplus (-score) + negative term`.

  Two spellings of this are compared. One counts in floats: the count is a sum of zeros and ones, "no candidates" is
  `count = 0.0`, the number of unmarked classes is `32000.0 - count`. The other counts in 32-bit integers and converts
  afterwards. Since `N ≤ 32000` nothing wraps, and both are the same function of `N` (`perRowK_eq`, `perRowR_eq`).
  Also here: a one-bit word widened to 32 bits is nonzero exactly when it is one, its signed reading is 0 or 1, a sum
  of such readings is the count, and the two spellings of softplus (`0 - |x|` against `-|x|`, and a test `x ≠ x`
  that never fires on the extended reals) are one function.
-/
import Idealize.ShloMosaic.PureOps.Ideal
import Idealize.ShloMosaic.PureOps.Ideal.Laws
import Idealize.ShloMosaic.Lib.IndicatorCount

noncomputable section

namespace Cert.RowLoss

open Idealize.ShloMosaic

/-! ## One-bit words -/

theorem bit_cases (v : BitVec 1) : v = 0#1 ∨ v = 1#1 := by
  have hl := v.isLt
  rcases Nat.lt_or_ge v.toNat 1 with h | h
  · exact Or.inl (BitVec.eq_of_toNat_eq (by show v.toNat = 0; omega))
  · exact Or.inr (BitVec.eq_of_toNat_eq (by show v.toNat = 1; omega))

/-- A one-bit word widened to 32 bits differs from zero exactly when it is one. -/
theorem cmpi_ne_widen (v : BitVec 1) : IntOp.cmpi .ne (v.setWidth 32) 0#32 = v := by
  rcases bit_cases v with rfl | rfl <;> decide

/-- The signed reading of a widened one-bit word is 0 or 1. -/
theorem toInt_widen (v : BitVec 1) : ((v.setWidth 32).toInt : ℝ) = if v = 1#1 then 1 else 0 := by
  rcases bit_cases v with rfl | rfl
  · rw [if_neg (by decide), show ((0#1 : BitVec 1).setWidth 32).toInt = 0 from by decide]; norm_num
  · rw [if_pos rfl, show ((1#1 : BitVec 1).setWidth 32).toInt = 1 from by decide]; norm_num

/-- A finite sum of real numbers, read in the extended reals. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The marked classes of a row. -/
def marked {ι : Type} [Fintype ι] (p : ι → BitVec 1) : ℕ := (Finset.univ.filter fun k => p k = 1#1).card

/-- Summing the signed readings of the widened marks, as floats, counts the marks. -/
theorem count_float {ι : Type} [Fintype ι] (p : ι → BitVec 1) :
    ∑ k, (((((IntOp.cmpi .ne ((p k).setWidth 32) 0#32).setWidth 32).toInt : ℝ)) : EReal) = ((marked p : ℝ) : EReal) := by
  classical
  rw [coe_sum]
  congr 1
  unfold marked
  rw [← Finset.sum_boole]
  exact Finset.sum_congr rfl fun k _ => by rw [cmpi_ne_widen, toInt_widen]

/-- Summing the widened marks as 32-bit integers counts them too. -/
theorem count_int {ι : Type} [Fintype ι] (p : ι → BitVec 1) :
    (Finset.univ : Finset ι).fold IntOp.addi (0#32) (fun k => (p k).setWidth 32) = BitVec.ofNat 32 (marked p) :=
  IndicatorCount.fold_addi_setWidth_eq_card p Finset.univ

/-! ## The float constants -/

abbrev zeroE : EReal := Ideal.ofBits .f32 0x00000000#32
abbrev classesE : EReal := Ideal.ofBits .f32 0x46FA0000#32
abbrev oneE : EReal := Ideal.ofBits .f32 0x3F800000#32

theorem zeroE_eq : zeroE = 0 := Ideal.ofBits_zero_f32
theorem classesE_eq : classesE = ((32000 : ℝ) : EReal) := by
  simp [Ideal.ofBits, Ideal.ieee, -EReal.coe_mul]; norm_num
theorem oneE_eq : oneE = ((1 : ℝ) : EReal) := by
  simp [Ideal.ofBits, Ideal.ieee, -EReal.coe_mul]; norm_num

/-! ## Softplus, twice -/

theorem select_one {α : Type} (a b : α) : Scalar.select (1#1) a b = a := by unfold Scalar.select; exact if_pos (by decide)
theorem select_zero {α : Type} (a b : α) : Scalar.select (0#1) a b = b := by unfold Scalar.select; exact if_neg (by decide)

/-- `max x 0 + log (1 + exp (-|x - 0|))`, guarded by a test `x - 0 ≠ x - 0`. -/
def softplusH (x : EReal) : EReal :=
  Scalar.select (Ideal.cmp .une (x - zeroE) (x - zeroE)) (x + zeroE)
    (max x zeroE + Ideal.log1p (Ideal.exp (-(max (x - zeroE) (-(x - zeroE))))))

/-- The same with `0 - |x - 0|` for the negation and the ordered form of the test. -/
def softplusK (x : EReal) : EReal :=
  Scalar.select (Ideal.cmp .one (x - zeroE) (x - zeroE)) (x + zeroE)
    (max x zeroE + Ideal.log1p (Ideal.exp (zeroE - (max (x - zeroE) (-(x - zeroE))))))

theorem softplusK_eq (x : EReal) : softplusK x = softplusH x := by
  unfold softplusK softplusH
  have h1 : Ideal.cmp .one (x - zeroE) (x - zeroE) = 0#1 := by simp [Ideal.cmp]
  have h2 : Ideal.cmp .une (x - zeroE) (x - zeroE) = 0#1 := by simp [Ideal.cmp]
  rw [h1, h2, select_zero, select_zero]
  rw [show zeroE - max (x - zeroE) (-(x - zeroE)) = -(max (x - zeroE) (-(x - zeroE))) from by rw [zeroE_eq, zero_sub]]

/-! ## The row's loss as a function of the count -/

/-- The divisor of the positive score: the count, or every class when nothing is marked. -/
def posDiv (N : ℕ) : ℕ := if N = 0 then 32000 else N
/-- The number of unmarked classes that enters the negative term (none when nothing is marked). -/
def negCnt (N : ℕ) : ℕ := if N = 0 then 0 else 32000 - N

/-- The row's loss from the count `N`, the positive sum `pos` and the negative sum `neg`. -/
def perRow (N : ℕ) (pos neg : EReal) : EReal :=
  softplusH (-(Ideal.div pos ((posDiv N : ℝ) : EReal)))
    + (if 0 < negCnt N then Ideal.div neg (((max (negCnt N) 1 : ℕ) : ℝ) : EReal) else zeroE)

/-- Counting in floats. -/
def perRowK (cnt pos neg tot : EReal) : EReal :=
  softplusH (-(Ideal.div (Scalar.select (Ideal.cmp .oeq cnt zeroE) tot pos) (Scalar.select (Ideal.cmp .oeq cnt zeroE) classesE cnt)))
    + Scalar.select (Ideal.cmp .ogt (classesE - Scalar.select (Ideal.cmp .oeq cnt zeroE) classesE cnt) zeroE)
        (Ideal.div neg (max (classesE - Scalar.select (Ideal.cmp .oeq cnt zeroE) classesE cnt) oneE)) zeroE

/-- Counting in 32-bit integers. -/
def perRowR (cI : BitVec 32) (pos neg : EReal) : EReal :=
  softplusH (-(Ideal.div pos ((((Scalar.select (IntOp.cmpi .eq cI 0#32) 32000#32 cI).toInt : ℝ)) : EReal)))
    + Scalar.select (IntOp.cmpi .sgt (IntOp.subi 32000#32 (Scalar.select (IntOp.cmpi .eq cI 0#32) 32000#32 cI)) 0#32)
        (Ideal.div neg ((((IntOp.maxsi (IntOp.subi 32000#32 (Scalar.select (IntOp.cmpi .eq cI 0#32) 32000#32 cI)) 1#32).toInt : ℝ)) : EReal)) zeroE

theorem perRowK_eq (N : ℕ) (hN : N ≤ 32000) (pos neg tot : EReal) :
    perRowK ((N : ℝ) : EReal) pos neg tot = perRow N (if N = 0 then tot else pos) neg := by
  unfold perRowK perRow posDiv negCnt
  rw [zeroE_eq, classesE_eq, oneE_eq]
  by_cases h : N = 0
  · subst h
    have e : Ideal.cmp .oeq (((0 : ℕ) : ℝ) : EReal) 0 = 1#1 := by simp [Ideal.cmp]
    rw [e, select_one, select_one, if_pos rfl, if_pos rfl, if_pos rfl]
    have g : Ideal.cmp .ogt ((32000 : ℝ) - (32000 : ℝ) : EReal) 0 = 0#1 := by
      rw [← EReal.coe_sub]; simp [Ideal.cmp]
    rw [g, select_zero, if_neg (by decide)]
    norm_num
  · have hpos : (0 : ℝ) < N := by exact_mod_cast Nat.pos_of_ne_zero h
    have e : Ideal.cmp .oeq ((N : ℝ) : EReal) 0 = 0#1 := by
      have : ((N : ℝ) : EReal) ≠ 0 := by
        rw [← EReal.coe_zero, Ne, EReal.coe_eq_coe_iff]; exact ne_of_gt hpos
      simp [Ideal.cmp, h]
    rw [e, select_zero, select_zero, if_neg h, if_neg h, if_neg h]
    rw [← EReal.coe_sub]
    have hc : ((32000 : ℝ) - (N : ℝ)) = ((32000 - N : ℕ) : ℝ) := by
      rw [Nat.cast_sub hN]; norm_num
    rw [hc]
    by_cases hlt : 0 < 32000 - N
    · have g : Ideal.cmp .ogt ((((32000 - N : ℕ) : ℝ)) : EReal) 0 = 1#1 := by
        have : (0 : EReal) < (((32000 - N : ℕ) : ℝ) : EReal) := by
          rw [← EReal.coe_zero, EReal.coe_lt_coe_iff]; exact_mod_cast hlt
        have hN' : N < 32000 := by omega
        simp [Ideal.cmp, hN']
      rw [g, select_one, if_pos hlt]
      congr 2
      rw [← EReal.coe_strictMono.monotone.map_max, Nat.cast_max, Nat.cast_one]
    · have hz : 32000 - N = 0 := by omega
      rw [hz]
      have g : Ideal.cmp .ogt ((((0 : ℕ) : ℝ)) : EReal) 0 = 0#1 := by simp [Ideal.cmp]
      rw [g, select_zero, if_neg (by decide)]

theorem toInt_small (M : ℕ) (h : M ≤ 32000) : (BitVec.ofNat 32 M).toInt = (M : ℤ) := by
  have hlt : M < 2 ^ 32 := Nat.lt_of_le_of_lt h (by norm_num)
  rw [BitVec.toInt_eq_toNat_cond, BitVec.toNat_ofNat, Nat.mod_eq_of_lt hlt]
  rw [if_pos (by norm_num; omega)]

theorem perRowR_eq (N : ℕ) (hN : N ≤ 32000) (pos neg : EReal) :
    perRowR (BitVec.ofNat 32 N) pos neg = perRow N pos neg := by
  unfold perRowR perRow posDiv negCnt
  by_cases h : N = 0
  · subst h
    rw [show IntOp.cmpi .eq (BitVec.ofNat 32 0) 0#32 = 1#1 from by decide, select_one,
      show IntOp.subi 32000#32 32000#32 = 0#32 from by decide,
      show IntOp.cmpi .sgt (0#32) 0#32 = 0#1 from by decide, select_zero,
      show (32000#32 : BitVec 32).toInt = 32000 from by decide, if_pos rfl, if_pos rfl, if_neg (by decide)]
    norm_num
  · have e : IntOp.cmpi .eq (BitVec.ofNat 32 N) 0#32 = 0#1 := by
      unfold IntOp.cmpi
      have : (BitVec.ofNat 32 N == 0#32) = false := by
        rw [beq_eq_false_iff_ne]
        intro hc
        have := congrArg BitVec.toNat hc
        rw [BitVec.toNat_ofNat, Nat.mod_eq_of_lt (by omega)] at this
        exact h (by simpa using this)
      simp [this]
    rw [e, select_zero, if_neg h, if_neg h]
    have hs : IntOp.subi 32000#32 (BitVec.ofNat 32 N) = BitVec.ofNat 32 (32000 - N) := by
      unfold IntOp.subi
      apply BitVec.eq_of_toNat_eq
      rw [BitVec.toNat_sub, BitVec.toNat_ofNat, BitVec.toNat_ofNat, BitVec.toNat_ofNat]
      omega
    rw [hs, toInt_small N hN]
    have hM : 32000 - N ≤ 32000 := by omega
    by_cases hlt : 0 < 32000 - N
    · have g : IntOp.cmpi .sgt (BitVec.ofNat 32 (32000 - N)) 0#32 = 1#1 := by
        unfold IntOp.cmpi
        have : (0#32 : BitVec 32).slt (BitVec.ofNat 32 (32000 - N)) = true := by
          unfold BitVec.slt
          rw [toInt_small _ hM]
          simp; omega
        simp [this]
      rw [g, select_one, if_pos hlt]
      have hmx : IntOp.maxsi (BitVec.ofNat 32 (32000 - N)) 1#32 = BitVec.ofNat 32 (max (32000 - N) 1) := by
        unfold IntOp.maxsi
        by_cases h1 : 1 < 32000 - N
        · have : (1#32 : BitVec 32).slt (BitVec.ofNat 32 (32000 - N)) = true := by
            unfold BitVec.slt
            rw [toInt_small _ hM]
            simp; omega
          rw [if_pos this, max_eq_left (by omega)]
        · have : (1#32 : BitVec 32).slt (BitVec.ofNat 32 (32000 - N)) = false := by
            unfold BitVec.slt
            rw [toInt_small _ hM]
            simp; omega
          rw [if_neg (by simp [this])]
          have : 32000 - N = 1 := by omega
          rw [this]; rfl
      rw [hmx, toInt_small _ (by omega)]
      push_cast
      rfl
    · have hz : 32000 - N = 0 := by omega
      rw [hz, show IntOp.cmpi .sgt (BitVec.ofNat 32 0) 0#32 = 0#1 from by decide, select_zero, if_neg (by decide)]
      push_cast
      rfl

/-- THE ROW BRIDGE: counting in floats and counting in integers give one loss, when the positive sums agree (the
    float side's being the sum of all logits on an unmarked row) and, on a marked row, the negative sums agree. -/
theorem perRow_bridge (N : ℕ) (hN : N ≤ 32000) (posK negK tot posR negR : EReal)
    (h0 : N = 0 → posR = tot) (hp : N ≠ 0 → posR = posK) (hn : N ≠ 0 → negR = negK) :
    perRowK ((N : ℝ) : EReal) posK negK tot = perRowR (BitVec.ofNat 32 N) posR negR := by
  rw [perRowK_eq N hN, perRowR_eq N hN]
  by_cases h : N = 0
  · rw [if_pos h, h0 h]
    unfold perRow negCnt
    rw [if_pos h, if_neg (by decide), if_neg (by decide)]
  · rw [if_neg h, hp h, hn h]

end Cert.RowLoss

end
-- ==== Proof.KernelRows.lean ====
/-
  What one grid point computes, row by row.

  A grid point holds a block of 128 rows: the logits `x0` (extended reals) and the candidate marks `x1`, widened to
  32-bit words. For each row it stores four numbers, each a sum over the row's 32000 classes kept as a one-entry
  column: the number of marked classes (each mark read as the float 0 or 1), the sum of the marked logits, the sum of
  `softplus` of the unmarked logits, and the sum of all logits. A sum over the lanes of a block, cast to a column,
  read at row `r`, is the sum over the classes `k` of the entry at `(r, k)`.
-/
import proofs.«121508_j31688268709966_1_alg».proof.Proof.Gen.KernelIdeal.Skeleton
import proofs.«121508_j31688268709966_1_alg».proof.Proof.LibColumnCast
import proofs.«121508_j31688268709966_1_alg».proof.Proof.RowLoss
import Idealize.ShloMosaic.Lib.ValueIdx
import Idealize.ShloMosaic.Lib.Pipeline.Value
import Idealize.ShloMosaic.PureOps.Ideal.Laws

noncomputable section

namespace Cert.KernelIdeal.Rows

open Cert.KernelIdeal Cert.KernelIdeal.Gen Idealize.ShloMosaic Idealize.ShloMosaic.ValueIdx

/-- The float reading of one widened mark: 1 when the word is nonzero, else 0. -/
def markTerm (b : BitVec 32) : EReal := ((((IntOp.cmpi .ne b 0#32).setWidth 32).toInt : ℝ) : EReal)
/-- A logit where the class is marked, else zero. -/
def posTerm (b : BitVec 32) (x : EReal) : EReal := Scalar.select (IntOp.cmpi .ne b 0#32) x Cert.RowLoss.zeroE
/-- `softplus` of a logit where the class is unmarked, else zero. -/
def negTerm (b : BitVec 32) (x : EReal) : EReal := Scalar.select (IntOp.cmpi .ne b 0#32) Cert.RowLoss.zeroE (Cert.RowLoss.softplusK x)

/-- A lane sum of a [128, 32000] block, kept as a column, at row `r`: the sum over the classes of the row's entries. -/
theorem rowSum_apply (src : FVec Ideal S128x32000 .f32) (h : S128x32000.Reduces [1] S128) (hφ : FKind.Formats .f32)
    (hacc : (0x00000000#32 : BitVec 32) = FKind.add.neutral .f32 hφ) (hc : S128.ShapeCasts S128x1) (r : Fin 128) (u : Fin 1) :
    shapeCast S128x1 (multiReduction .add [1] S128 src 0x00000000#32 h hφ hacc) hc (ix2 r u)
      = ∑ k : Fin 32000, src (ix2 r k) := by
  refine (Cert.ColumnCast.shapeCast_a_a1_apply _ hc r u).trans ?_
  refine (Ideal.multiReduction_add_single src 0x00000000#32 h hφ hacc (ix1 r)).trans ?_
  show (∑ k : Fin 32000, src (h.lift (ix1 r) k)) = _
  refine Finset.sum_congr rfl fun k _ => congrArg src ?_
  exact funext fun a => Fin.ext (by match a with | ⟨0, _⟩ => rfl | ⟨1, _⟩ => rfl)

/-- The stored count of row `r`. -/
theorem pay2_apply (x1 : IVec S128x32000 32) (r : Fin 128) (u : Fin 1) :
    k0_pay2 (F := Ideal) x1 (ix2 r u) = ∑ k : Fin 32000, markTerm (x1 (ix2 r k)) := by
  unfold k0_pay2 k0_pay1
  exact rowSum_apply _ _ _ _ _ r u

/-- The stored sum of marked logits of row `r`. -/
theorem pay3_apply (x0 : FVec Ideal S128x32000 .f32) (x1 : IVec S128x32000 32) (r : Fin 128) (u : Fin 1) :
    k0_pay3 (F := Ideal) x0 x1 (ix2 r u) = ∑ k : Fin 32000, posTerm (x1 (ix2 r k)) (x0 (ix2 r k)) := by
  unfold k0_pay3 k0_pay1
  exact rowSum_apply _ _ _ _ _ r u

/-- The stored sum of `softplus` of unmarked logits of row `r`. -/
theorem pay4_apply (x0 : FVec Ideal S128x32000 .f32) (x1 : IVec S128x32000 32) (r : Fin 128) (u : Fin 1) :
    k0_pay4 (F := Ideal) x0 x1 (ix2 r u) = ∑ k : Fin 32000, negTerm (x1 (ix2 r k)) (x0 (ix2 r k)) := by
  unfold k0_pay4 k0_pay1
  exact rowSum_apply _ _ _ _ _ r u

/-- The stored sum of all logits of row `r`. -/
theorem pay5_apply (x0 : FVec Ideal S128x32000 .f32) (r : Fin 128) (u : Fin 1) :
    k0_pay5 (F := Ideal) x0 (ix2 r u) = ∑ k : Fin 32000, x0 (ix2 r k) := by
  unfold k0_pay5
  exact rowSum_apply _ _ _ _ _ r u

end Cert.KernelIdeal.Rows

end
-- ==== Proof.KernelArrays.lean ====
/-
  The four columns the grid leaves, as whole-array functions.

  The grid has 32 points; point `t` reads rows `128 t … 128 t + 127` of the logits and of the widened marks (all 32000
  classes of each) and writes rows `128 t … 128 t + 127` of four [4096, 1] columns. So each column ends holding, at
  row `i`, the row sum over the classes of the array's own row `i`: the count of marks, the sum of marked logits, the
  sum of `softplus` of unmarked logits, the sum of all logits. The blocks of the 32 points tile the 4096 rows: row `i`
  is in the block of point `i / 128`.
-/
import proofs.«121508_j31688268709966_1_alg».proof.Proof.Gen.KernelIdeal.Frame
import proofs.«121508_j31688268709966_1_alg».proof.Proof.KernelRows
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Rows Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- The row of a column index. -/
abbrev rowOf (i : S4096x1.Idx) : Fin 4096 := ⟨(i 0).val, (i 0).isLt⟩

/-- Per row: the number of marked classes, as a float sum of zeros and ones. -/
def Gcnt (b : S4096x32000.Idx → BitVec 32) : S4096x1.Idx → EReal := fun i => ∑ k : Fin 32000, markTerm (b (ix2 (rowOf i) k))
/-- Per row: the sum of the marked logits. -/
def Gpos (x : S4096x32000.Idx → EReal) (b : S4096x32000.Idx → BitVec 32) : S4096x1.Idx → EReal :=
  fun i => ∑ k : Fin 32000, posTerm (b (ix2 (rowOf i) k)) (x (ix2 (rowOf i) k))
/-- Per row: the sum of `softplus` of the unmarked logits. -/
def Gneg (x : S4096x32000.Idx → EReal) (b : S4096x32000.Idx → BitVec 32) : S4096x1.Idx → EReal :=
  fun i => ∑ k : Fin 32000, negTerm (b (ix2 (rowOf i) k)) (x (ix2 (rowOf i) k))
/-- Per row: the sum of all logits. -/
def Gtot (x : S4096x32000.Idx → EReal) : S4096x1.Idx → EReal := fun i => ∑ k : Fin 32000, x (ix2 (rowOf i) k)

/-- The index maps over the grid: every window's block at point `t` is block `(t, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Input window 0's block at point `t`, at `(r, k)`, is the array's entry at the row output window 2's block entry `(r, u)` lands on, class `k`. -/
theorem in0_row2 (t : Fin cfg0.N) (r : Fin 128) (u : Fin 1) (k : Fin 32000) :
    ((cfg0.win 0).blk t).view.emb (ix2 r k) = ix2 (rowOf (((cfg0.win 2).blk t).view.emb (ix2 r u))) k := by
  obtain ⟨e00, e01, e10, e11, e20, e21, e30, e31, e40, e41, e50, e51⟩ := idx_facts t
  funext a; apply Fin.ext
  match a with
  | ⟨0, _⟩ => show win0_0.index t (0 : Fin 2) * 128 + 1 * r.val = win0_2.index t (0 : Fin 2) * 128 + 1 * r.val; omega
  | ⟨1, _⟩ => show win0_0.index t (1 : Fin 2) * 32000 + 1 * k.val = k.val; omega

/-- Input window 0's block at point `t`, at `(r, k)`, is the array's entry at the row output window 3's block entry `(r, u)` lands on, class `k`. -/
theorem in0_row3 (t : Fin cfg0.N) (r : Fin 128) (u : Fin 1) (k : Fin 32000) :
    ((cfg0.win 0).blk t).view.emb (ix2 r k) = ix2 (rowOf (((cfg0.win 3).blk t).view.emb (ix2 r u))) k := by
  obtain ⟨e00, e01, e10, e11, e20, e21, e30, e31, e40, e41, e50, e51⟩ := idx_facts t
  funext a; apply Fin.ext
  match a with
  | ⟨0, _⟩ => show win0_0.index t (0 : Fin 2) * 128 + 1 * r.val = win0_3.index t (0 : Fin 2) * 128 + 1 * r.val; omega
  | ⟨1, _⟩ => show win0_0.index t (1 : Fin 2) * 32000 + 1 * k.val = k.val; omega

/-- Input window 0's block at point `t`, at `(r, k)`, is the array's entry at the row output window 4's block entry `(r, u)` lands on, class `k`. -/
theorem in0_row4 (t : Fin cfg0.N) (r : Fin 128) (u : Fin 1) (k : Fin 32000) :
    ((cfg0.win 0).blk t).view.emb (ix2 r k) = ix2 (rowOf (((cfg0.win 4).blk t).view.emb (ix2 r u))) k := by
  obtain ⟨e00, e01, e10, e11, e20, e21, e30, e31, e40, e41, e50, e51⟩ := idx_facts t
  funext a; apply Fin.ext
  match a with
  | ⟨0, _⟩ => show win0_0.index t (0 : Fin 2) * 128 + 1 * r.val = win0_4.index t (0 : Fin 2) * 128 + 1 * r.val; omega
  | ⟨1, _⟩ => show win0_0.index t (1 : Fin 2) * 32000 + 1 * k.val = k.val; omega

/-- Input window 0's block at point `t`, at `(r, k)`, is the array's entry at the row output window 5's block entry `(r, u)` lands on, class `k`. -/
theorem in0_row5 (t : Fin cfg0.N) (r : Fin 128) (u : Fin 1) (k : Fin 32000) :
    ((cfg0.win 0).blk t).view.emb (ix2 r k) = ix2 (rowOf (((cfg0.win 5).blk t).view.emb (ix2 r u))) k := by
  obtain ⟨e00, e01, e10, e11, e20, e21, e30, e31, e40, e41, e50, e51⟩ := idx_facts t
  funext a; apply Fin.ext
  match a with
  | ⟨0, _⟩ => show win0_0.index t (0 : Fin 2) * 128 + 1 * r.val = win0_5.index t (0 : Fin 2) * 128 + 1 * r.val; omega
  | ⟨1, _⟩ => show win0_0.index t (1 : Fin 2) * 32000 + 1 * k.val = k.val; omega

/-- Input window 1's block at point `t`, at `(r, k)`, is the array's entry at the row output window 2's block entry `(r, u)` lands on, class `k`. -/
theorem in1_row2 (t : Fin cfg0.N) (r : Fin 128) (u : Fin 1) (k : Fin 32000) :
    ((cfg0.win 1).blk t).view.emb (ix2 r k) = ix2 (rowOf (((cfg0.win 2).blk t).view.emb (ix2 r u))) k := by
  obtain ⟨e00, e01, e10, e11, e20, e21, e30, e31, e40, e41, e50, e51⟩ := idx_facts t
  funext a; apply Fin.ext
  match a with
  | ⟨0, _⟩ => show win0_1.index t (0 : Fin 2) * 128 + 1 * r.val = win0_2.index t (0 : Fin 2) * 128 + 1 * r.val; omega
  | ⟨1, _⟩ => show win0_1.index t (1 : Fin 2) * 32000 + 1 * k.val = k.val; omega

/-- Input window 1's block at point `t`, at `(r, k)`, is the array's entry at the row output window 3's block entry `(r, u)` lands on, class `k`. -/
theorem in1_row3 (t : Fin cfg0.N) (r : Fin 128) (u : Fin 1) (k : Fin 32000) :
    ((cfg0.win 1).blk t).view.emb (ix2 r k) = ix2 (rowOf (((cfg0.win 3).blk t).view.emb (ix2 r u))) k := by
  obtain ⟨e00, e01, e10, e11, e20, e21, e30, e31, e40, e41, e50, e51⟩ := idx_facts t
  funext a; apply Fin.ext
  match a with
  | ⟨0, _⟩ => show win0_1.index t (0 : Fin 2) * 128 + 1 * r.val = win0_3.index t (0 : Fin 2) * 128 + 1 * r.val; omega
  | ⟨1, _⟩ => show win0_1.index t (1 : Fin 2) * 32000 + 1 * k.val = k.val; omega

/-- Input window 1's block at point `t`, at `(r, k)`, is the array's entry at the row output window 4's block entry `(r, u)` lands on, class `k`. -/
theorem in1_row4 (t : Fin cfg0.N) (r : Fin 128) (u : Fin 1) (k : Fin 32000) :
    ((cfg0.win 1).blk t).view.emb (ix2 r k) = ix2 (rowOf (((cfg0.win 4).blk t).view.emb (ix2 r u))) k := by
  obtain ⟨e00, e01, e10, e11, e20, e21, e30, e31, e40, e41, e50, e51⟩ := idx_facts t
  funext a; apply Fin.ext
  match a with
  | ⟨0, _⟩ => show win0_1.index t (0 : Fin 2) * 128 + 1 * r.val = win0_4.index t (0 : Fin 2) * 128 + 1 * r.val; omega
  | ⟨1, _⟩ => show win0_1.index t (1 : Fin 2) * 32000 + 1 * k.val = k.val; omega

/-- Input window 1's block at point `t`, at `(r, k)`, is the array's entry at the row output window 5's block entry `(r, u)` lands on, class `k`. -/
theorem in1_row5 (t : Fin cfg0.N) (r : Fin 128) (u : Fin 1) (k : Fin 32000) :
    ((cfg0.win 1).blk t).view.emb (ix2 r k) = ix2 (rowOf (((cfg0.win 5).blk t).view.emb (ix2 r u))) k := by
  obtain ⟨e00, e01, e10, e11, e20, e21, e30, e31, e40, e41, e50, e51⟩ := idx_facts t
  funext a; apply Fin.ext
  match a with
  | ⟨0, _⟩ => show win0_1.index t (0 : Fin 2) * 128 + 1 * r.val = win0_5.index t (0 : Fin 2) * 128 + 1 * r.val; omega
  | ⟨1, _⟩ => show win0_1.index t (1 : Fin 2) * 32000 + 1 * k.val = k.val; omega

/-! ## Output window 2: the cnt column -/

set_option maxRecDepth 100000 in
/-- What point `t` writes back through window 2 is block `t` of the whole-array function. -/
theorem flushed2_eq (c : Dev nD) (t : Fin cfg0.N) :
    (dats m 0 c).flushed 2 t = ((cfg0.win 2).blk t).view.read (Elt Ideal) (Gcnt (V m c main_v0)) := by
  show (cfg0.win 2).cut (grid0.coords t) ((dats m 0 c).after 2 t) = _
  rw [after0_2]
  unfold out0_2
  rw [View.canon_unit_zero hz]
  simp only [View.ld_unit_zero (S := S128x32000) hz]
  funext j
  obtain ⟨r, u, rfl⟩ : ∃ (r : Fin 128) (u : Fin 1), j = ix2 r u := ⟨j 0, j 1, eq_ix2 j⟩
  show k0_pay2 (iblk m c 1 t) (ix2 r u) = (Gcnt (V m c main_v0)) (((cfg0.win 2).blk t).view.emb (ix2 r u))
  refine (pay2_apply _ r u).trans ?_
  refine Finset.sum_congr rfl fun k _ => ?_
  show markTerm (V m c main_v0 (((cfg0.win 1).blk t).view.emb (ix2 r k))) = markTerm (V m c main_v0 (ix2 (rowOf (((cfg0.win 2).blk t).view.emb (ix2 r u))) k))
  rw [in1_row2 t r u k]

/-- An index of the column is in point `t`'s block iff each coordinate is in the block's range on its axis. -/
theorem mem_blk2 (t : Fin cfg0.N) (i : S4096x1.Idx) :
    i ∈ ((cfg0.win 2).blk t).view.set ↔ ∀ a : Fin 2, win0_2.index t a * S128x1.size a ≤ (i a).val ∧ (i a).val < win0_2.index t a * S128x1.size a + S128x1.size a := by
  show i ∈ ((View.whole main_v1_0).slice (win0_2.rect t)).set ↔ _
  rw [View.set_slice_whole, Rect.mem_set_unit]
  exact Iff.rfl

/-- Row `i` of the column lies in the block of point `i / 128`. -/
theorem cover2 (i : S4096x1.Idx) : ∃ t : Fin cfg0.N, (cfg0.win 2).flush t = true ∧ i ∈ ((cfg0.win 2).blk t).view.set := by
  have hi0 : (i 0).val < 4096 := (i 0).isLt
  have hi1 : (i 1).val < 1 := (i 1).isLt
  have hN : cfg0.N = 32 := N_0
  refine ⟨⟨(i 0).val / 128, by rw [hN]; omega⟩, flush0_2 _, ?_⟩
  obtain ⟨e00, e01, e10, e11, e20, e21, e30, e31, e40, e41, e50, e51⟩ := idx_facts ⟨(i 0).val / 128, by rw [hN]; omega⟩
  rw [mem_blk2]
  intro a
  match a with
  | ⟨0, _⟩ =>
    show win0_2.index _ (0 : Fin 2) * 128 ≤ (i 0).val ∧ (i 0).val < win0_2.index _ (0 : Fin 2) * 128 + 128
    rw [e20]; show (i 0).val / 128 * 128 ≤ (i 0).val ∧ (i 0).val < (i 0).val / 128 * 128 + 128; omega
  | ⟨1, _⟩ =>
    show win0_2.index _ (1 : Fin 2) * 1 ≤ (i 1).val ∧ (i 1).val < win0_2.index _ (1 : Fin 2) * 1 + 1
    rw [e21]; omega

/-- The cnt column after the run, as one function of the arrays the region finds. -/
theorem final2 (c : Dev nD) : (dats m 0 c).arrAt 2 cfg0.N = Gcnt (V m c main_v0) :=
  (dats m 0 c).arrAt_eq_of_cover 2 (Gcnt (V m c main_v0)) (fun t _ => flushed2_eq m c t) cover2

/-! ## Output window 3: the pos column -/

set_option maxRecDepth 100000 in
/-- What point `t` writes back through window 3 is block `t` of the whole-array function. -/
theorem flushed3_eq (c : Dev nD) (t : Fin cfg0.N) :
    (dats m 0 c).flushed 3 t = ((cfg0.win 3).blk t).view.read (Elt Ideal) (Gpos (V m c main_arg0) (V m c main_v0)) := by
  show (cfg0.win 3).cut (grid0.coords t) ((dats m 0 c).after 3 t) = _
  rw [after0_3]
  unfold out0_3
  rw [View.canon_unit_zero hz]
  simp only [View.ld_unit_zero (S := S128x32000) hz]
  funext j
  obtain ⟨r, u, rfl⟩ : ∃ (r : Fin 128) (u : Fin 1), j = ix2 r u := ⟨j 0, j 1, eq_ix2 j⟩
  show k0_pay3 (iblk m c 0 t) (iblk m c 1 t) (ix2 r u) = (Gpos (V m c main_arg0) (V m c main_v0)) (((cfg0.win 3).blk t).view.emb (ix2 r u))
  refine (pay3_apply _ _ r u).trans ?_
  refine Finset.sum_congr rfl fun k _ => ?_
  show posTerm (V m c main_v0 (((cfg0.win 1).blk t).view.emb (ix2 r k))) (V m c main_arg0 (((cfg0.win 0).blk t).view.emb (ix2 r k))) = posTerm (V m c main_v0 (ix2 (rowOf (((cfg0.win 3).blk t).view.emb (ix2 r u))) k)) (V m c main_arg0 (ix2 (rowOf (((cfg0.win 3).blk t).view.emb (ix2 r u))) k))
  rw [in1_row3 t r u k, in0_row3 t r u k]

/-- An index of the column is in point `t`'s block iff each coordinate is in the block's range on its axis. -/
theorem mem_blk3 (t : Fin cfg0.N) (i : S4096x1.Idx) :
    i ∈ ((cfg0.win 3).blk t).view.set ↔ ∀ a : Fin 2, win0_3.index t a * S128x1.size a ≤ (i a).val ∧ (i a).val < win0_3.index t a * S128x1.size a + S128x1.size a := by
  show i ∈ ((View.whole main_v1_1).slice (win0_3.rect t)).set ↔ _
  rw [View.set_slice_whole, Rect.mem_set_unit]
  exact Iff.rfl

/-- Row `i` of the column lies in the block of point `i / 128`. -/
theorem cover3 (i : S4096x1.Idx) : ∃ t : Fin cfg0.N, (cfg0.win 3).flush t = true ∧ i ∈ ((cfg0.win 3).blk t).view.set := by
  have hi0 : (i 0).val < 4096 := (i 0).isLt
  have hi1 : (i 1).val < 1 := (i 1).isLt
  have hN : cfg0.N = 32 := N_0
  refine ⟨⟨(i 0).val / 128, by rw [hN]; omega⟩, flush0_3 _, ?_⟩
  obtain ⟨e00, e01, e10, e11, e20, e21, e30, e31, e40, e41, e50, e51⟩ := idx_facts ⟨(i 0).val / 128, by rw [hN]; omega⟩
  rw [mem_blk3]
  intro a
  match a with
  | ⟨0, _⟩ =>
    show win0_3.index _ (0 : Fin 2) * 128 ≤ (i 0).val ∧ (i 0).val < win0_3.index _ (0 : Fin 2) * 128 + 128
    rw [e30]; show (i 0).val / 128 * 128 ≤ (i 0).val ∧ (i 0).val < (i 0).val / 128 * 128 + 128; omega
  | ⟨1, _⟩ =>
    show win0_3.index _ (1 : Fin 2) * 1 ≤ (i 1).val ∧ (i 1).val < win0_3.index _ (1 : Fin 2) * 1 + 1
    rw [e31]; omega

/-- The pos column after the run, as one function of the arrays the region finds. -/
theorem final3 (c : Dev nD) : (dats m 0 c).arrAt 3 cfg0.N = Gpos (V m c main_arg0) (V m c main_v0) :=
  (dats m 0 c).arrAt_eq_of_cover 3 (Gpos (V m c main_arg0) (V m c main_v0)) (fun t _ => flushed3_eq m c t) cover3

/-! ## Output window 4: the neg column -/

set_option maxRecDepth 100000 in
/-- What point `t` writes back through window 4 is block `t` of the whole-array function. -/
theorem flushed4_eq (c : Dev nD) (t : Fin cfg0.N) :
    (dats m 0 c).flushed 4 t = ((cfg0.win 4).blk t).view.read (Elt Ideal) (Gneg (V m c main_arg0) (V m c main_v0)) := by
  show (cfg0.win 4).cut (grid0.coords t) ((dats m 0 c).after 4 t) = _
  rw [after0_4]
  unfold out0_4
  rw [View.canon_unit_zero hz]
  simp only [View.ld_unit_zero (S := S128x32000) hz]
  funext j
  obtain ⟨r, u, rfl⟩ : ∃ (r : Fin 128) (u : Fin 1), j = ix2 r u := ⟨j 0, j 1, eq_ix2 j⟩
  show k0_pay4 (iblk m c 0 t) (iblk m c 1 t) (ix2 r u) = (Gneg (V m c main_arg0) (V m c main_v0)) (((cfg0.win 4).blk t).view.emb (ix2 r u))
  refine (pay4_apply _ _ r u).trans ?_
  refine Finset.sum_congr rfl fun k _ => ?_
  show negTerm (V m c main_v0 (((cfg0.win 1).blk t).view.emb (ix2 r k))) (V m c main_arg0 (((cfg0.win 0).blk t).view.emb (ix2 r k))) = negTerm (V m c main_v0 (ix2 (rowOf (((cfg0.win 4).blk t).view.emb (ix2 r u))) k)) (V m c main_arg0 (ix2 (rowOf (((cfg0.win 4).blk t).view.emb (ix2 r u))) k))
  rw [in1_row4 t r u k, in0_row4 t r u k]

/-- An index of the column is in point `t`'s block iff each coordinate is in the block's range on its axis. -/
theorem mem_blk4 (t : Fin cfg0.N) (i : S4096x1.Idx) :
    i ∈ ((cfg0.win 4).blk t).view.set ↔ ∀ a : Fin 2, win0_4.index t a * S128x1.size a ≤ (i a).val ∧ (i a).val < win0_4.index t a * S128x1.size a + S128x1.size a := by
  show i ∈ ((View.whole main_v1_2).slice (win0_4.rect t)).set ↔ _
  rw [View.set_slice_whole, Rect.mem_set_unit]
  exact Iff.rfl

/-- Row `i` of the column lies in the block of point `i / 128`. -/
theorem cover4 (i : S4096x1.Idx) : ∃ t : Fin cfg0.N, (cfg0.win 4).flush t = true ∧ i ∈ ((cfg0.win 4).blk t).view.set := by
  have hi0 : (i 0).val < 4096 := (i 0).isLt
  have hi1 : (i 1).val < 1 := (i 1).isLt
  have hN : cfg0.N = 32 := N_0
  refine ⟨⟨(i 0).val / 128, by rw [hN]; omega⟩, flush0_4 _, ?_⟩
  obtain ⟨e00, e01, e10, e11, e20, e21, e30, e31, e40, e41, e50, e51⟩ := idx_facts ⟨(i 0).val / 128, by rw [hN]; omega⟩
  rw [mem_blk4]
  intro a
  match a with
  | ⟨0, _⟩ =>
    show win0_4.index _ (0 : Fin 2) * 128 ≤ (i 0).val ∧ (i 0).val < win0_4.index _ (0 : Fin 2) * 128 + 128
    rw [e40]; show (i 0).val / 128 * 128 ≤ (i 0).val ∧ (i 0).val < (i 0).val / 128 * 128 + 128; omega
  | ⟨1, _⟩ =>
    show win0_4.index _ (1 : Fin 2) * 1 ≤ (i 1).val ∧ (i 1).val < win0_4.index _ (1 : Fin 2) * 1 + 1
    rw [e41]; omega

/-- The neg column after the run, as one function of the arrays the region finds. -/
theorem final4 (c : Dev nD) : (dats m 0 c).arrAt 4 cfg0.N = Gneg (V m c main_arg0) (V m c main_v0) :=
  (dats m 0 c).arrAt_eq_of_cover 4 (Gneg (V m c main_arg0) (V m c main_v0)) (fun t _ => flushed4_eq m c t) cover4

/-! ## Output window 5: the tot column -/

set_option maxRecDepth 100000 in
/-- What point `t` writes back through window 5 is block `t` of the whole-array function. -/
theorem flushed5_eq (c : Dev nD) (t : Fin cfg0.N) :
    (dats m 0 c).flushed 5 t = ((cfg0.win 5).blk t).view.read (Elt Ideal) (Gtot (V m c main_arg0)) := by
  show (cfg0.win 5).cut (grid0.coords t) ((dats m 0 c).after 5 t) = _
  rw [after0_5]
  unfold out0_5
  rw [View.canon_unit_zero hz]
  simp only [View.ld_unit_zero (S := S128x32000) hz]
  funext j
  obtain ⟨r, u, rfl⟩ : ∃ (r : Fin 128) (u : Fin 1), j = ix2 r u := ⟨j 0, j 1, eq_ix2 j⟩
  show k0_pay5 (iblk m c 0 t) (ix2 r u) = (Gtot (V m c main_arg0)) (((cfg0.win 5).blk t).view.emb (ix2 r u))
  refine (pay5_apply _ r u).trans ?_
  refine Finset.sum_congr rfl fun k _ => ?_
  show V m c main_arg0 (((cfg0.win 0).blk t).view.emb (ix2 r k)) = V m c main_arg0 (ix2 (rowOf (((cfg0.win 5).blk t).view.emb (ix2 r u))) k)
  rw [in0_row5 t r u k]

/-- An index of the column is in point `t`'s block iff each coordinate is in the block's range on its axis. -/
theorem mem_blk5 (t : Fin cfg0.N) (i : S4096x1.Idx) :
    i ∈ ((cfg0.win 5).blk t).view.set ↔ ∀ a : Fin 2, win0_5.index t a * S128x1.size a ≤ (i a).val ∧ (i a).val < win0_5.index t a * S128x1.size a + S128x1.size a := by
  show i ∈ ((View.whole main_v1_3).slice (win0_5.rect t)).set ↔ _
  rw [View.set_slice_whole, Rect.mem_set_unit]
  exact Iff.rfl

/-- Row `i` of the column lies in the block of point `i / 128`. -/
theorem cover5 (i : S4096x1.Idx) : ∃ t : Fin cfg0.N, (cfg0.win 5).flush t = true ∧ i ∈ ((cfg0.win 5).blk t).view.set := by
  have hi0 : (i 0).val < 4096 := (i 0).isLt
  have hi1 : (i 1).val < 1 := (i 1).isLt
  have hN : cfg0.N = 32 := N_0
  refine ⟨⟨(i 0).val / 128, by rw [hN]; omega⟩, flush0_5 _, ?_⟩
  obtain ⟨e00, e01, e10, e11, e20, e21, e30, e31, e40, e41, e50, e51⟩ := idx_facts ⟨(i 0).val / 128, by rw [hN]; omega⟩
  rw [mem_blk5]
  intro a
  match a with
  | ⟨0, _⟩ =>
    show win0_5.index _ (0 : Fin 2) * 128 ≤ (i 0).val ∧ (i 0).val < win0_5.index _ (0 : Fin 2) * 128 + 128
    rw [e50]; show (i 0).val / 128 * 128 ≤ (i 0).val ∧ (i 0).val < (i 0).val / 128 * 128 + 128; omega
  | ⟨1, _⟩ =>
    show win0_5.index _ (1 : Fin 2) * 1 ≤ (i 1).val ∧ (i 1).val < win0_5.index _ (1 : Fin 2) * 1 + 1
    rw [e51]; omega

/-- The tot column after the run, as one function of the arrays the region finds. -/
theorem final5 (c : Dev nD) : (dats m 0 c).arrAt 5 cfg0.N = Gtot (V m c main_arg0) :=
  (dats m 0 c).arrAt_eq_of_cover 5 (Gtot (V m c main_arg0)) (fun t _ => flushed5_eq m c t) cover5

end Cert.KernelIdeal.Arrays

end
-- ==== Proof.KernelTail.lean ====
/-
  After the grid: from the four columns to the loss.

  The host lines after the grid read the four [4096, 1] columns as [4096] vectors `cnt`, `pos`, `neg`, `tot` and
  compute, row by row, `empty = (cnt = 0)`, the positive score `(empty ? tot : pos) / (empty ? 32000 : cnt)`, the
  number of unmarked classes `32000 - (empty ? 32000 : cnt)`, the negative term `neg / max(unmarked, 1)` where
  `unmarked > 0` and `0` elsewhere, the row's loss `softplus(-score) + negative term`, and finally the mean of the
  4096 losses. `tail` is that computation as one function of the four columns; the run's result buffer holds `tail`
  of the columns the grid left, which are the row sums of the arguments (the marks entering widened to 32-bit words).
-/
import proofs.«121508_j31688268709966_1_alg».proof.Proof.Gen.KernelIdeal.Frame
import proofs.«121508_j31688268709966_1_alg».proof.Proof.KernelArrays
import Idealize.ShloMosaic.Lib.StableHlo.Run
import Idealize.ShloMosaic.Lib.Tactic

noncomputable section

open Idealize.ShloMosaic Idealize.ShloMosaic.TcCoe Idealize.SL.Sem Idealize.ShloMosaic.StableHlo
open Idealize.ShloMosaic.Pipeline (Dat)

namespace Cert.KernelIdeal.Tail

open Cert.KernelIdeal Cert.KernelIdeal.Gen Cert.KernelIdeal.Arrays Idealize.ShloMosaic.ValueIdx

/-- A float constant spread over the 4096 rows. -/
def rowsOf (w : BitVec 32) : FVec Ideal S4096 .f32 := broadcastInDim S4096 ![] bcast_S_S4096 (constant (F := Ideal) S_ .f32 w)

/-- `softplus` of a vector, as the host spells it. -/
def softplusV (x : FVec Ideal S4096 .f32) : FVec Ideal S4096 .f32 :=
  select (cmpf .une (subf x (rowsOf 0x00000000#32)) (subf x (rowsOf 0x00000000#32))) (addf x (rowsOf 0x00000000#32))
    (addf (maximumf x (rowsOf 0x00000000#32))
      (Host.log1p (Host.exp (Host.negf (Host.absf (subf x (rowsOf 0x00000000#32)))))))

/-- The loss of every row from the four per-row sums. -/
def perSampleV (cnt pos neg tot : FVec Ideal S4096 .f32) : FVec Ideal S4096 .f32 :=
  addf
    (softplusV (Host.negf (Host.divf (select (cmpf .oeq cnt (rowsOf 0x00000000#32)) tot pos)
      (select (cmpf .oeq cnt (rowsOf 0x00000000#32)) (rowsOf 0x46FA0000#32) cnt))))
    (select (cmpf .ogt (subf (rowsOf 0x46FA0000#32) (select (cmpf .oeq cnt (rowsOf 0x00000000#32)) (rowsOf 0x46FA0000#32) cnt)) (rowsOf 0x00000000#32))
      (Host.divf neg (maximumf (subf (rowsOf 0x46FA0000#32) (select (cmpf .oeq cnt (rowsOf 0x00000000#32)) (rowsOf 0x46FA0000#32) cnt)) (rowsOf 0x3F800000#32)))
      (rowsOf 0x00000000#32))

/-- The mean loss from the four columns. -/
def tail (c2 c3 c4 c5 : FVec Ideal S4096x1 .f32) : FVec Ideal S_ .f32 :=
  Host.divf
    (Host.reduceAdd
      (perSampleV (shapeCast S4096 c2 shapeCasts_S4096x1_S4096) (shapeCast S4096 c3 shapeCasts_S4096x1_S4096)
        (shapeCast S4096 c4 shapeCasts_S4096x1_S4096) (shapeCast S4096 c5 shapeCasts_S4096x1_S4096))
      (constant (F := Ideal) S_ .f32 0x00000000#32) reducesTo_S4096_S_d0 h_S_)
    (constant (F := Ideal) S_ .f32 0x45800000#32)

variable (m : (ℓ : Loc nD τ sig) → Buf (Elt Ideal) ℓ) (ρ : Dev nD → PrngReg)

/-- The widened marks the grid reads are the one host line before it applied to the second argument. -/
theorem V_marks (c : Dev nD) :
    (V m c main_v0 : S4096x32000.Idx → BitVec 32) = extui 32 (m ((c : Thread nD τ).loc main_arg1)) natLt_1_32 := by
  show StableHlo.after hostOps0 (fun b => m (c, b)) (Proc.devRef .tc main_v0) = _
  after_results

set_option maxRecDepth 100000 in
/-- The result buffer after the host lines is `tail` of the four columns as the grid left them. -/
theorem tail_eq (c : Dev nD) :
    Pipeline.afterTail₀ cfgs (dats m) 0 (V0 m) [hostOps1, hostOps1_1, hostOps1_2, hostOps1_3, hostOps1_4, hostOps1_5, hostOps1_6, hostOps1_7, hostOps1_8, hostOps1_9] c main_v24
      = tail ((dats m 0 c).arrAt 2 cfg0.N) ((dats m 0 c).arrAt 3 cfg0.N) ((dats m 0 c).arrAt 4 cfg0.N) ((dats m 0 c).arrAt 5 cfg0.N) := by
  have e2 := Pipeline.withArrays_arr spec0 launch0.win.arr_inj c (V0 m c) (fun w => (dats m 0 c).arrAt w cfg0.N) 2
  have e3 := Pipeline.withArrays_arr spec0 launch0.win.arr_inj c (V0 m c) (fun w => (dats m 0 c).arrAt w cfg0.N) 3
  have e4 := Pipeline.withArrays_arr spec0 launch0.win.arr_inj c (V0 m c) (fun w => (dats m 0 c).arrAt w cfg0.N) 4
  have e5 := Pipeline.withArrays_arr spec0 launch0.win.arr_inj c (V0 m c) (fun w => (dats m 0 c).arrAt w cfg0.N) 5
  unfold Pipeline.afterTail₀
  rw [← e2, ← e3, ← e4, ← e5]
  generalize Pipeline.withArrays spec0 c (V0 m c) (fun w => (dats m 0 c).arrAt w cfg0.N) = W
  simp only [hostOps1, hostOps1_1, hostOps1_2, hostOps1_3, hostOps1_4, hostOps1_5, hostOps1_6, hostOps1_7, hostOps1_8, hostOps1_9,
    List.flatten_cons, List.flatten_nil, List.append_nil, List.cons_append, List.nil_append]
  after_results_simp
  simp only [StableHlo.TRef.toBuf, StableHlo.TRef.ofBuf, cast_cast, cast_eq]
  rfl

/-- The four columns after the run, as functions of the two arguments. -/
theorem columns (c : Dev nD) :
    (dats m 0 c).arrAt 2 cfg0.N = Gcnt (extui 32 (m ((c : Thread nD τ).loc main_arg1)) natLt_1_32)
    ∧ (dats m 0 c).arrAt 3 cfg0.N = Gpos (m ((c : Thread nD τ).loc main_arg0)) (extui 32 (m ((c : Thread nD τ).loc main_arg1)) natLt_1_32)
    ∧ (dats m 0 c).arrAt 4 cfg0.N = Gneg (m ((c : Thread nD τ).loc main_arg0)) (extui 32 (m ((c : Thread nD τ).loc main_arg1)) natLt_1_32)
    ∧ (dats m 0 c).arrAt 5 cfg0.N = Gtot (m ((c : Thread nD τ).loc main_arg0)) := by
  refine ⟨?_, ?_, ?_, ?_⟩
  · rw [final2, V_marks]
  · rw [final3, V_marks, V_main_arg0]
  · rw [final4, V_marks, V_main_arg0]
  · rw [final5, V_main_arg0]

/-- The kernel's result as one function of its two arguments: the mean loss of the row sums. -/
def kernelVal (x0 : S4096x32000.Idx → EReal) (x1 : S4096x32000.Idx → BitVec 1) : S_.Idx → EReal :=
  tail (Gcnt (extui 32 x1 natLt_1_32)) (Gpos x0 (extui 32 x1 natLt_1_32)) (Gneg x0 (extui 32 x1 natLt_1_32)) (Gtot x0)

/-- THE KERNEL'S RUN, READ: every weakly fair execution terminates with the result buffer at `kernelVal` of the arguments
    and the arguments unchanged. -/
theorem run : θ_run defs (onTc (τ := τ) (main (F := Ideal))) ⟨m, fun _ => 0, ρ⟩ fun r => ∀ c : Dev nD,
      r.2.mem ((c.tc : Thread nD τ).loc main_v24) = kernelVal (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    obtain ⟨h2, h3, h4, h5⟩ := columns m c
    refine ⟨?_, ?_, ?_⟩
    · refine ((h c).2 main_v24 (Pipeline.mem_restRefs_of main_v24 (by decide) (by decide))).trans ?_
      rw [tail_eq, h2, h3, h4, h5]
      rfl
    · exact ((h c).1 0).trans (((dats m 0 c).arrAt_in 0 rfl _).trans ((A_eq m c 0).trans (V_main_arg0 m c)))
    · exact ((h c).2 main_arg1 (Pipeline.mem_restRefs_of main_arg1 (by decide) (by decide))).trans (W_main_arg1 m (dats m) c))
    (run_main m ρ)

end Cert.KernelIdeal.Tail

end
-- ==== Proof.LibColumnDrop.lean ====
/-
  A column read as a vector, at an index given by coordinates: an [a, 1] array cast to [a] reads, at row r, the entry
  (r, 0). (The inverse of the keepdims cast [a] → [a, 1]; both indices have the row-major position r.)
-/
import Idealize.ShloMosaic.Lib.Pipeline.Value
import Idealize.ShloMosaic.Lib.ValueIdx

namespace Cert.ColumnDrop

open Idealize.ShloMosaic Idealize.ShloMosaic.ValueIdx

variable {α : Type}

/-- An `[a, 1]` array cast to `[a]` reads, at `r`, the operand at `(r, 0)`. -/
theorem shapeCast_a1_a_apply {a : ℕ} (x : (⟨2, ![a, 1]⟩ : Shape).Idx → α) (h : (⟨2, ![a, 1]⟩ : Shape).ShapeCasts ⟨1, ![a]⟩)
    (r : Fin a) : shapeCast ⟨1, ![a]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

end Cert.ColumnDrop
-- ==== Proof.KernelLoss.lean ====
/-
  The kernel's result, row by row.

  The mean of the 4096 row losses, each computed from the row's four sums: at every row the vector computation of the
  host lines is the scalar computation `perRowK` of the row's entries, a float constant spread over the rows reads
  that constant, and a [4096, 1] column read as a vector reads, at row r, the column's entry (r, 0).
-/
import proofs.«121508_j31688268709966_1_alg».proof.Proof.KernelTail
import proofs.«121508_j31688268709966_1_alg».proof.Proof.LibColumnDrop
import Idealize.ShloMosaic.Lib.IdealHost

noncomputable section

open Idealize.ShloMosaic Idealize.ShloMosaic.TcCoe Idealize.SL.Sem

namespace Cert.KernelIdeal.Loss

open Cert.KernelIdeal Cert.KernelIdeal.Gen Cert.KernelIdeal.Arrays Cert.KernelIdeal.Tail Idealize.ShloMosaic.ValueIdx

/-- The row of a vector index. -/
abbrev row1 (j : S4096.Idx) : Fin 4096 := ⟨(j 0).val, (j 0).isLt⟩

theorem rowsOf_apply (w : BitVec 32) (j : S4096.Idx) : rowsOf w j = Ideal.ofBits .f32 w :=
  broadcastInDim_scalar_apply _ _ j

theorem softplusV_apply (x : FVec Ideal S4096 .f32) (j : S4096.Idx) : softplusV x j = Cert.RowLoss.softplusH (x j) := by
  show Scalar.select (Ideal.cmp .une (x j - rowsOf 0x00000000#32 j) (x j - rowsOf 0x00000000#32 j)) (x j + rowsOf 0x00000000#32 j)
      (max (x j) (rowsOf 0x00000000#32 j) + Ideal.log1p (Ideal.exp (-(max (x j - rowsOf 0x00000000#32 j) (-(x j - rowsOf 0x00000000#32 j)))))) = _
  rw [rowsOf_apply]
  rfl

/-- At every row the vector computation is the scalar one. -/
theorem perSampleV_apply (cnt pos neg tot : FVec Ideal S4096 .f32) (j : S4096.Idx) :
    perSampleV cnt pos neg tot j = Cert.RowLoss.perRowK (cnt j) (pos j) (neg j) (tot j) := by
  show softplusV (Host.negf (Host.divf (select (cmpf .oeq cnt (rowsOf 0x00000000#32)) tot pos)
        (select (cmpf .oeq cnt (rowsOf 0x00000000#32)) (rowsOf 0x46FA0000#32) cnt))) j
      + Scalar.select (Ideal.cmp .ogt (rowsOf 0x46FA0000#32 j - Scalar.select (Ideal.cmp .oeq (cnt j) (rowsOf 0x00000000#32 j)) (rowsOf 0x46FA0000#32 j) (cnt j)) (rowsOf 0x00000000#32 j))
          (Ideal.div (neg j) (max (rowsOf 0x46FA0000#32 j - Scalar.select (Ideal.cmp .oeq (cnt j) (rowsOf 0x00000000#32 j)) (rowsOf 0x46FA0000#32 j) (cnt j)) (rowsOf 0x3F800000#32 j)))
          (rowsOf 0x00000000#32 j) = _
  rw [softplusV_apply]
  show Cert.RowLoss.softplusH (-(Ideal.div (Scalar.select (Ideal.cmp .oeq (cnt j) (rowsOf 0x00000000#32 j)) (tot j) (pos j))
        (Scalar.select (Ideal.cmp .oeq (cnt j) (rowsOf 0x00000000#32 j)) (rowsOf 0x46FA0000#32 j) (cnt j)))) + _ = _
  simp only [rowsOf_apply]
  rfl

/-- A column read as a vector. -/
theorem col_apply (c2 : FVec Ideal S4096x1 .f32) (j : S4096.Idx) :
    shapeCast S4096 c2 shapeCasts_S4096x1_S4096 j = c2 (ix2 (row1 j) (0 : Fin 1)) := by
  have hj : j = ix1 (row1 j) := funext fun d => by match d with | ⟨0, _⟩ => rfl
  conv_lhs => rw [hj]
  exact Cert.ColumnDrop.shapeCast_a1_a_apply c2 shapeCasts_S4096x1_S4096 (row1 j)

/-- The mean loss from the four columns, as a sum over the rows of the scalar row loss. -/
theorem tail_apply (c2 c3 c4 c5 : FVec Ideal S4096x1 .f32) (i : S_.Idx) :
    tail c2 c3 c4 c5 i
      = Ideal.div (Cert.RowLoss.zeroE + ∑ j : S4096.Idx, Cert.RowLoss.perRowK (c2 (ix2 (row1 j) (0 : Fin 1))) (c3 (ix2 (row1 j) (0 : Fin 1)))
          (c4 (ix2 (row1 j) (0 : Fin 1))) (c5 (ix2 (row1 j) (0 : Fin 1)))) (Ideal.ofBits .f32 0x45800000#32) := by
  show Ideal.div (Ideal.hostReduceAdd reducesTo_S4096_S_d0 (perSampleV (shapeCast S4096 c2 shapeCasts_S4096x1_S4096) (shapeCast S4096 c3 shapeCasts_S4096x1_S4096)
      (shapeCast S4096 c4 shapeCasts_S4096x1_S4096) (shapeCast S4096 c5 shapeCasts_S4096x1_S4096)) (Ideal.ofBits .f32 0x00000000#32) i) (Ideal.ofBits .f32 0x45800000#32) = _
  rw [Ideal.hostReduceAdd_total reducesTo_S4096_S_d0 (fun b => b.elim0)]
  refine congrArg (fun s => Ideal.div (Cert.RowLoss.zeroE + s) (Ideal.ofBits .f32 0x45800000#32)) (Finset.sum_congr rfl fun j _ => ?_)
  rw [perSampleV_apply, col_apply, col_apply, col_apply, col_apply]

end Cert.KernelIdeal.Loss

end
-- ==== Proof.RefOps.lean ====
/-
  The reference program as a list of its 79 host operations, and its run: every weakly fair execution of the reference
  terminates, and afterwards every buffer holds what the operations, applied in order to the contents at launch, leave
  in it. (A called function's operations stand at its call.) What the last buffer then holds, as a function of the two
  arguments, is read off in the modules that import this one.
-/
import proofs.«121508_j31688268709966_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The reference's 79 operations, in order (a called function's operations stand in its call's place). -/
abbrev ops : List (HloOp τ sig (Elt F)) :=
  [ unary main_arg1 main_v0 ((extui 32 · natLt_1_32) : (⟨S4096x32000, .i1⟩ : BufTy).Contents (Elt F) → (⟨S4096x32000, .i32⟩ : BufTy).Contents (Elt F)),
    nullary main_c (constantI S_ 32 0#32),
    binary main_v0 main_c main_v1 ((fun x v => Host.reduce IntOp.addi x v reducesTo_S4096x32000_S4096_d1 h_S_) : (⟨S4096x32000, .i32⟩ : BufTy).Contents (Elt F) → (⟨S_, .i32⟩ : BufTy).Contents (Elt F) → (⟨S4096, .i32⟩ : BufTy).Contents (Elt F)),
    nullary main_c_0 (constantI S_ 32 0#32),
    unary main_c_0 main_v2 (broadcastInDim S4096 ![] bcast_S_S4096 : (⟨S_, .i32⟩ : BufTy).Contents (Elt F) → (⟨S4096, .i32⟩ : BufTy).Contents (Elt F)),
    binary main_v1 main_v2 main_v3 (cmpi .eq : (⟨S4096, .i32⟩ : BufTy).Contents (Elt F) → (⟨S4096, .i32⟩ : BufTy).Contents (Elt F) → (⟨S4096, .i1⟩ : BufTy).Contents (Elt F)),
    unary main_v3 main_v4 (broadcastInDim S4096x1 ![0] bcast_S4096_S4096x1_0 : (⟨S4096, .i1⟩ : BufTy).Contents (Elt F) → (⟨S4096x1, .i1⟩ : BufTy).Contents (Elt F)),
    nullary main_c_1 (constantI S_ 1 1#1),
    TRef.unary (TRef.of (T := ⟨S4096x1, .i1⟩) main_v4) (TRef.of (T := ⟨S4096x32000, .i1⟩) main_call0_v0) (broadcastInDim S4096x32000 ![0, 1] bcast_S4096x1_S4096x32000_0_1),
    TRef.unary (TRef.of (T := ⟨S_, .i1⟩) main_c_1) (TRef.of (T := ⟨S4096x32000, .i1⟩) main_call0_v1) (broadcastInDim S4096x32000 ![] bcast_S_S4096x32000),
    TRef.ternary (TRef.of (T := ⟨S4096x32000, .i1⟩) main_call0_v0) (TRef.of (T := ⟨S4096x32000, .i1⟩) main_call0_v1) (TRef.of (T := ⟨S4096x32000, .i1⟩) main_arg1) (TRef.of (T := ⟨S4096x32000, .i1⟩) main_v5) select,
    nullary main_c_2 (constantI S_ 32 32000#32),
    TRef.unary (TRef.of (T := ⟨S_, .i32⟩) main_c_2) (TRef.of (T := ⟨S_, .i32⟩) main_call1_v0) id,
    TRef.unary (TRef.of (T := ⟨S_, .i32⟩) main_call1_v0) (TRef.of (T := ⟨S4096, .i32⟩) main_call1_v1) (broadcastInDim S4096 ![] bcast_S_S4096),
    TRef.ternary (TRef.of (T := ⟨S4096, .i1⟩) main_v3) (TRef.of (T := ⟨S4096, .i32⟩) main_call1_v1) (TRef.of (T := ⟨S4096, .i32⟩) main_v1) (TRef.of (T := ⟨S4096, .i32⟩) main_v6) select,
    unary main_v6 main_v7 (sitofp .f32 : (⟨S4096, .i32⟩ : BufTy).Contents (Elt F) → (⟨S4096, .f32⟩ : BufTy).Contents (Elt F)),
    nullary main_cst (constant S_ .f32 0x00000000#32),
    TRef.unary (TRef.of (T := ⟨S_, .f32⟩) main_cst) (TRef.of (T := ⟨S4096x32000, .f32⟩) main_call2_v0) (broadcastInDim S4096x32000 ![] bcast_S_S4096x32000),
    TRef.ternary (TRef.of (T := ⟨S4096x32000, .i1⟩) main_v5) (TRef.of (T := ⟨S4096x32000, .f32⟩) main_arg0) (TRef.of (T := ⟨S4096x32000, .f32⟩) main_call2_v0) (TRef.of (T := ⟨S4096x32000, .f32⟩) main_v8) select,
    nullary main_cst_3 (constant S_ .f32 0x00000000#32),
    binary main_v8 main_cst_3 main_v9 ((fun x v => Host.reduceAdd x v reducesTo_S4096x32000_S4096_d1 h_S_) : (⟨S4096x32000, .f32⟩ : BufTy).Contents (Elt F) → (⟨S_, .f32⟩ : BufTy).Contents (Elt F) → (⟨S4096, .f32⟩ : BufTy).Contents (Elt F)),
    binary main_v9 main_v7 main_v10 (Host.divf : (⟨S4096, .f32⟩ : BufTy).Contents (Elt F) → (⟨S4096, .f32⟩ : BufTy).Contents (Elt F) → (⟨S4096, .f32⟩ : BufTy).Contents (Elt F)),
    nullary main_c_4 (constantI S_ 32 32000#32),
    TRef.unary (TRef.of (T := ⟨S_, .i32⟩) main_c_4) (TRef.of (T := ⟨S_, .i32⟩) main_call3_v0) id,
    TRef.unary (TRef.of (T := ⟨S_, .i32⟩) main_call3_v0) (TRef.of (T := ⟨S4096, .i32⟩) main_call3_v1) (broadcastInDim S4096 ![] bcast_S_S4096),
    TRef.ternary (TRef.of (T := ⟨S4096, .i1⟩) main_v3) (TRef.of (T := ⟨S4096, .i32⟩) main_call3_v1) (TRef.of (T := ⟨S4096, .i32⟩) main_v1) (TRef.of (T := ⟨S4096, .i32⟩) main_v11) select,
    nullary main_c_5 (constantI S_ 32 32000#32),
    unary main_c_5 main_v12 (broadcastInDim S4096 ![] bcast_S_S4096 : (⟨S_, .i32⟩ : BufTy).Contents (Elt F) → (⟨S4096, .i32⟩ : BufTy).Contents (Elt F)),
    binary main_v12 main_v11 main_v13 (subi : (⟨S4096, .i32⟩ : BufTy).Contents (Elt F) → (⟨S4096, .i32⟩ : BufTy).Contents (Elt F) → (⟨S4096, .i32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S4096x32000, .f32⟩) main_call4_v0) (broadcastInDim S4096x32000 ![] bcast_S_S4096x32000),
    TRef.binary (TRef.of (T := ⟨S4096x32000, .f32⟩) main_arg0) (TRef.of (T := ⟨S4096x32000, .f32⟩) main_call4_v0) (TRef.of (T := ⟨S4096x32000, .f32⟩) main_call4_v1) maximumf,
    TRef.unary (TRef.of (T := ⟨S_, .f32⟩) main_call4_cst) (TRef.of (T := ⟨S4096x32000, .f32⟩) main_call4_v2) (broadcastInDim S4096x32000 ![] bcast_S_S4096x32000),
    TRef.binary (TRef.of (T := ⟨S4096x32000, .f32⟩) main_arg0) (TRef.of (T := ⟨S4096x32000, .f32⟩) main_call4_v2) (TRef.of (T := ⟨S4096x32000, .f32⟩) main_call4_v3) subf,
    TRef.binary (TRef.of (T := ⟨S4096x32000, .f32⟩) main_call4_v3) (TRef.of (T := ⟨S4096x32000, .f32⟩) main_call4_v3) (TRef.of (T := ⟨S4096x32000, .i1⟩) main_call4_v4) (cmpf .une),
    TRef.unary (TRef.of (T := ⟨S_, .f32⟩) main_call4_cst) (TRef.of (T := ⟨S4096x32000, .f32⟩) main_call4_v5) (broadcastInDim S4096x32000 ![] bcast_S_S4096x32000),
    TRef.binary (TRef.of (T := ⟨S4096x32000, .f32⟩) main_arg0) (TRef.of (T := ⟨S4096x32000, .f32⟩) main_call4_v5) (TRef.of (T := ⟨S4096x32000, .f32⟩) main_call4_v6) addf,
    TRef.unary (TRef.of (T := ⟨S4096x32000, .f32⟩) main_call4_v3) (TRef.of (T := ⟨S4096x32000, .f32⟩) main_call4_v7) Host.absf,
    TRef.unary (TRef.of (T := ⟨S4096x32000, .f32⟩) main_call4_v7) (TRef.of (T := ⟨S4096x32000, .f32⟩) main_call4_v8) Host.negf,
    TRef.unary (TRef.of (T := ⟨S4096x32000, .f32⟩) main_call4_v8) (TRef.of (T := ⟨S4096x32000, .f32⟩) main_call4_v9) Host.exp,
    TRef.unary (TRef.of (T := ⟨S4096x32000, .f32⟩) main_call4_v9) (TRef.of (T := ⟨S4096x32000, .f32⟩) main_call4_v10) Host.log1p,
    TRef.binary (TRef.of (T := ⟨S4096x32000, .f32⟩) main_call4_v1) (TRef.of (T := ⟨S4096x32000, .f32⟩) main_call4_v10) (TRef.of (T := ⟨S4096x32000, .f32⟩) main_call4_v11) addf,
    TRef.ternary (TRef.of (T := ⟨S4096x32000, .i1⟩) main_call4_v4) (TRef.of (T := ⟨S4096x32000, .f32⟩) main_call4_v6) (TRef.of (T := ⟨S4096x32000, .f32⟩) main_call4_v11) (TRef.of (T := ⟨S4096x32000, .f32⟩) main_v14) select,
    nullary main_cst_6 (constant S_ .f32 0x00000000#32),
    TRef.unary (TRef.of (T := ⟨S_, .f32⟩) main_cst_6) (TRef.of (T := ⟨S4096x32000, .f32⟩) main_call5_v0) (broadcastInDim S4096x32000 ![] bcast_S_S4096x32000),
    TRef.ternary (TRef.of (T := ⟨S4096x32000, .i1⟩) main_v5) (TRef.of (T := ⟨S4096x32000, .f32⟩) main_call5_v0) (TRef.of (T := ⟨S4096x32000, .f32⟩) main_v14) (TRef.of (T := ⟨S4096x32000, .f32⟩) main_v15) select,
    nullary main_cst_7 (constant S_ .f32 0x00000000#32),
    binary main_v15 main_cst_7 main_v16 ((fun x v => Host.reduceAdd x v reducesTo_S4096x32000_S4096_d1 h_S_) : (⟨S4096x32000, .f32⟩ : BufTy).Contents (Elt F) → (⟨S_, .f32⟩ : BufTy).Contents (Elt F) → (⟨S4096, .f32⟩ : BufTy).Contents (Elt F)),
    nullary main_c_8 (constantI S_ 32 0#32),
    unary main_c_8 main_v17 (broadcastInDim S4096 ![] bcast_S_S4096 : (⟨S_, .i32⟩ : BufTy).Contents (Elt F) → (⟨S4096, .i32⟩ : BufTy).Contents (Elt F)),
    binary main_v13 main_v17 main_v18 (cmpi .sgt : (⟨S4096, .i32⟩ : BufTy).Contents (Elt F) → (⟨S4096, .i32⟩ : BufTy).Contents (Elt F) → (⟨S4096, .i1⟩ : BufTy).Contents (Elt F)),
    nullary main_c_9 (constantI S_ 32 1#32),
    unary main_c_9 main_v19 (broadcastInDim S4096 ![] bcast_S_S4096 : (⟨S_, .i32⟩ : BufTy).Contents (Elt F) → (⟨S4096, .i32⟩ : BufTy).Contents (Elt F)),
    binary main_v13 main_v19 main_v20 (maxsi : (⟨S4096, .i32⟩ : BufTy).Contents (Elt F) → (⟨S4096, .i32⟩ : BufTy).Contents (Elt F) → (⟨S4096, .i32⟩ : BufTy).Contents (Elt F)),
    unary main_v20 main_v21 (sitofp .f32 : (⟨S4096, .i32⟩ : BufTy).Contents (Elt F) → (⟨S4096, .f32⟩ : BufTy).Contents (Elt F)),
    binary main_v16 main_v21 main_v22 (Host.divf : (⟨S4096, .f32⟩ : BufTy).Contents (Elt F) → (⟨S4096, .f32⟩ : BufTy).Contents (Elt F) → (⟨S4096, .f32⟩ : BufTy).Contents (Elt F)),
    nullary main_cst_10 (constant S_ .f32 0x00000000#32),
    TRef.unary (TRef.of (T := ⟨S_, .f32⟩) main_cst_10) (TRef.of (T := ⟨S4096, .f32⟩) main_call6_v0) (broadcastInDim S4096 ![] bcast_S_S4096),
    TRef.ternary (TRef.of (T := ⟨S4096, .i1⟩) main_v18) (TRef.of (T := ⟨S4096, .f32⟩) main_v22) (TRef.of (T := ⟨S4096, .f32⟩) main_call6_v0) (TRef.of (T := ⟨S4096, .f32⟩) main_v23) select,
    unary main_v10 main_v24 (Host.negf : (⟨S4096, .f32⟩ : BufTy).Contents (Elt F) → (⟨S4096, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S4096, .f32⟩) main_call7_v0) (broadcastInDim S4096 ![] bcast_S_S4096),
    TRef.binary (TRef.of (T := ⟨S4096, .f32⟩) main_v24) (TRef.of (T := ⟨S4096, .f32⟩) main_call7_v0) (TRef.of (T := ⟨S4096, .f32⟩) main_call7_v1) maximumf,
    TRef.unary (TRef.of (T := ⟨S_, .f32⟩) main_call7_cst) (TRef.of (T := ⟨S4096, .f32⟩) main_call7_v2) (broadcastInDim S4096 ![] bcast_S_S4096),
    TRef.binary (TRef.of (T := ⟨S4096, .f32⟩) main_v24) (TRef.of (T := ⟨S4096, .f32⟩) main_call7_v2) (TRef.of (T := ⟨S4096, .f32⟩) main_call7_v3) subf,
    TRef.binary (TRef.of (T := ⟨S4096, .f32⟩) main_call7_v3) (TRef.of (T := ⟨S4096, .f32⟩) main_call7_v3) (TRef.of (T := ⟨S4096, .i1⟩) main_call7_v4) (cmpf .une),
    TRef.unary (TRef.of (T := ⟨S_, .f32⟩) main_call7_cst) (TRef.of (T := ⟨S4096, .f32⟩) main_call7_v5) (broadcastInDim S4096 ![] bcast_S_S4096),
    TRef.binary (TRef.of (T := ⟨S4096, .f32⟩) main_v24) (TRef.of (T := ⟨S4096, .f32⟩) main_call7_v5) (TRef.of (T := ⟨S4096, .f32⟩) main_call7_v6) addf,
    TRef.unary (TRef.of (T := ⟨S4096, .f32⟩) main_call7_v3) (TRef.of (T := ⟨S4096, .f32⟩) main_call7_v7) Host.absf,
    TRef.unary (TRef.of (T := ⟨S4096, .f32⟩) main_call7_v7) (TRef.of (T := ⟨S4096, .f32⟩) main_call7_v8) Host.negf,
    TRef.unary (TRef.of (T := ⟨S4096, .f32⟩) main_call7_v8) (TRef.of (T := ⟨S4096, .f32⟩) main_call7_v9) Host.exp,
    TRef.unary (TRef.of (T := ⟨S4096, .f32⟩) main_call7_v9) (TRef.of (T := ⟨S4096, .f32⟩) main_call7_v10) Host.log1p,
    TRef.binary (TRef.of (T := ⟨S4096, .f32⟩) main_call7_v1) (TRef.of (T := ⟨S4096, .f32⟩) main_call7_v10) (TRef.of (T := ⟨S4096, .f32⟩) main_call7_v11) addf,
    TRef.ternary (TRef.of (T := ⟨S4096, .i1⟩) main_call7_v4) (TRef.of (T := ⟨S4096, .f32⟩) main_call7_v6) (TRef.of (T := ⟨S4096, .f32⟩) main_call7_v11) (TRef.of (T := ⟨S4096, .f32⟩) main_v25) select,
    binary main_v25 main_v23 main_v26 (addf : (⟨S4096, .f32⟩ : BufTy).Contents (Elt F) → (⟨S4096, .f32⟩ : BufTy).Contents (Elt F) → (⟨S4096, .f32⟩ : BufTy).Contents (Elt F)),
    nullary main_cst_11 (constant S_ .f32 0x00000000#32),
    binary main_v26 main_cst_11 main_v27 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_12 (constant S_ .f32 0x45800000#32),
    binary main_v27 main_cst_12 main_v28 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., nullary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., unary_bufs_sub .., ternary_bufs_sub .., unary_bufs_sub .., nullary_bufs_sub .., unary_bufs_sub .., ternary_bufs_sub .., nullary_bufs_sub .., binary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., ternary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., ternary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., binary_bufs_sub .., nullary_bufs_sub .., binary_bufs_sub .., nullary_bufs_sub .., binary_bufs_sub ..⟩

/-- Every weakly fair execution of the reference terminates, and every buffer then holds what the operations leave. -/
theorem run_all (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = after ops (launchContents m d) (Proc.devRef .tc b) :=
  run_seq scopedRefs_eq scopedSems_eq defs main (fun _ => ops) main_eq (fun _ => ops_sub) m ρ

end Cert.ReferenceIdeal.Hand

end
-- ==== Proof.RefValue.lean ====
/-
  What the reference's last buffer holds, as one function of its two arguments.

  In order: the per-row count of candidate marks as a 32-bit integer sum; "no candidates" rows; the effective marks
  (every class on a row with no candidates, the given marks elsewhere); per row the sum of the effectively marked
  logits and the sum of `softplus` of the effectively unmarked ones; then, row by row, the positive score, the number of
  unmarked classes (in integers), the negative term, the row's loss, and the mean of the 4096 losses.
-/
import proofs.«121508_j31688268709966_1_alg».proof.Proof.RefOps
import Idealize.ShloMosaic.PureOps.Ideal
import Idealize.ShloMosaic.PureOps.Ideal.Laws

set_option Elab.async false

noncomputable section

namespace Cert.ReferenceIdeal.HandValue

open Cert.ReferenceIdeal Cert.ReferenceIdeal.Gen Cert.ReferenceIdeal.Hand Idealize.ShloMosaic Idealize.ShloMosaic.TcCoe Idealize.SL.Sem Idealize.ShloMosaic.StableHlo

/-- A float constant spread over the 4096 rows. -/
def rowsOf (w : BitVec 32) : FVec Ideal S4096 .f32 := broadcastInDim S4096 ![] bcast_S_S4096 (constant (F := Ideal) S_ .f32 w)
/-- A 32-bit integer constant spread over the 4096 rows. -/
def rowsOfI (w : BitVec 32) : IVec S4096 32 := broadcastInDim S4096 ![] bcast_S_S4096 (constantI S_ 32 w)
/-- A float constant spread over the whole [4096, 32000] array. -/
def allOf (w : BitVec 32) : FVec Ideal S4096x32000 .f32 := broadcastInDim S4096x32000 ![] bcast_S_S4096x32000 (constant (F := Ideal) S_ .f32 w)

/-- Per row, the number of candidate marks, summed as 32-bit integers. -/
def cntI (x1 : IVec S4096x32000 1) : IVec S4096 32 :=
  Host.reduce IntOp.addi (extui 32 x1 natLt_1_32) (constantI S_ 32 0#32) reducesTo_S4096x32000_S4096_d1 h_S_

/-- The rows with no candidate. -/
def emptyI (cI : IVec S4096 32) : IVec S4096 1 := cmpi .eq cI (rowsOfI 0#32)

/-- The effective marks: all ones on a row with no candidate, the given marks elsewhere. -/
def effMask (cI : IVec S4096 32) (x1 : IVec S4096x32000 1) : IVec S4096x32000 1 :=
  select (broadcastInDim S4096x32000 ![0, 1] bcast_S4096x1_S4096x32000_0_1 (broadcastInDim S4096x1 ![0] bcast_S4096_S4096x1_0 (emptyI cI)))
    (broadcastInDim S4096x32000 ![] bcast_S_S4096x32000 (constantI S_ 1 1#1)) x1

/-- Per row, the sum of the effectively marked logits. -/
def posV (M : IVec S4096x32000 1) (x0 : FVec Ideal S4096x32000 .f32) : FVec Ideal S4096 .f32 :=
  Host.reduceAdd (select M x0 (allOf 0x00000000#32)) (constant (F := Ideal) S_ .f32 0x00000000#32) reducesTo_S4096x32000_S4096_d1 h_S_

/-- `softplus` of every logit. -/
def softplusW (x : FVec Ideal S4096x32000 .f32) : FVec Ideal S4096x32000 .f32 :=
  select (cmpf .une (subf x (allOf 0x00000000#32)) (subf x (allOf 0x00000000#32))) (addf x (allOf 0x00000000#32))
    (addf (maximumf x (allOf 0x00000000#32))
      (Host.log1p (Host.exp (Host.negf (Host.absf (subf x (allOf 0x00000000#32)))))))

/-- Per row, the sum of `softplus` of the effectively unmarked logits. -/
def negV (M : IVec S4096x32000 1) (x0 : FVec Ideal S4096x32000 .f32) : FVec Ideal S4096 .f32 :=
  Host.reduceAdd (select M (allOf 0x00000000#32) (softplusW x0)) (constant (F := Ideal) S_ .f32 0x00000000#32) reducesTo_S4096x32000_S4096_d1 h_S_

/-- `softplus` of a vector of 4096 scores. -/
def softplusV (x : FVec Ideal S4096 .f32) : FVec Ideal S4096 .f32 :=
  select (cmpf .une (subf x (rowsOf 0x00000000#32)) (subf x (rowsOf 0x00000000#32))) (addf x (rowsOf 0x00000000#32))
    (addf (maximumf x (rowsOf 0x00000000#32))
      (Host.log1p (Host.exp (Host.negf (Host.absf (subf x (rowsOf 0x00000000#32)))))))

/-- The count that divides the positive sum: 32000 on a row with no candidate. -/
def effCnt (cI : IVec S4096 32) : IVec S4096 32 :=
  select (emptyI cI) (broadcastInDim S4096 ![] bcast_S_S4096 (id (constantI S_ 32 32000#32))) cI

/-- The positive score of every row. -/
def scoreV (cI : IVec S4096 32) (P : FVec Ideal S4096 .f32) : FVec Ideal S4096 .f32 := Host.divf P (sitofp .f32 (effCnt cI))
/-- The number of unmarked classes of every row, none on a row with no candidate. -/
def negCntV (cI : IVec S4096 32) : IVec S4096 32 := subi (rowsOfI 32000#32) (effCnt cI)

/-- The mean loss from the rows' scores, unmarked counts and negative sums. -/
def refTail (S : FVec Ideal S4096 .f32) (nc : IVec S4096 32) (N : FVec Ideal S4096 .f32) : FVec Ideal S_ .f32 :=
  Host.divf
    (Host.reduceAdd
      (addf (softplusV (Host.negf S))
        (select (cmpi .sgt nc (rowsOfI 0#32)) (Host.divf N (sitofp .f32 (maxsi nc (rowsOfI 1#32)))) (rowsOf 0x00000000#32)))
      (constant (F := Ideal) S_ .f32 0x00000000#32) reducesTo_S4096_S_d0 h_S_)
    (constant (F := Ideal) S_ .f32 0x45800000#32)

/-- The reference's result as one function of its two arguments. -/
def refVal (x0 : FVec Ideal S4096x32000 .f32) (x1 : IVec S4096x32000 1) : FVec Ideal S_ .f32 :=
  refTail (scoreV (cntI x1) (posV (effMask (cntI x1) x1) x0)) (negCntV (cntI x1)) (negV (effMask (cntI x1) x1) x0)

/-! ## The last buffer -/

set_option maxHeartbeats 8000000 in
/-- The last buffer after the 79 operations is `refVal` of the arguments: applying the operations in order, the
    per-row integer count is `cntI`, the mask built from it `effMask`, `softplus` of the logits `softplusW`, the two
    per-row sums `posV` and `negV`, and the remaining operations are `refTail` of the score, the unmarked count and the
    negative sum. -/
theorem value (V : Valuation τ sig (Elt Ideal)) :
    after (ops (F := Ideal)) V (Proc.devRef .tc main_v28)
      = refVal (V (Proc.devRef .tc main_arg0)) (V (Proc.devRef .tc main_arg1)) := by
  have hC : Host.reduce IntOp.addi (extui 32 (V (Proc.devRef .tc main_arg1)) natLt_1_32) (constantI S_ 32 0#32) reducesTo_S4096x32000_S4096_d1 h_S_
      = cntI (V (Proc.devRef .tc main_arg1)) := rfl
  have hM : select (broadcastInDim S4096x32000 ![0, 1] bcast_S4096x1_S4096x32000_0_1 (broadcastInDim S4096x1 ![0] bcast_S4096_S4096x1_0
        (cmpi .eq (cntI (V (Proc.devRef .tc main_arg1))) (broadcastInDim S4096 ![] bcast_S_S4096 (constantI S_ 32 0#32)))))
      (broadcastInDim S4096x32000 ![] bcast_S_S4096x32000 (constantI S_ 1 1#1)) (V (Proc.devRef .tc main_arg1))
      = effMask (cntI (V (Proc.devRef .tc main_arg1))) (V (Proc.devRef .tc main_arg1)) := rfl
  have hP : Host.reduceAdd (select (effMask (cntI (V (Proc.devRef .tc main_arg1))) (V (Proc.devRef .tc main_arg1))) (V (Proc.devRef .tc main_arg0)) (broadcastInDim S4096x32000 ![] bcast_S_S4096x32000 (constant (F := Ideal) S_ .f32 0x00000000#32)))
      (constant (F := Ideal) S_ .f32 0x00000000#32) reducesTo_S4096x32000_S4096_d1 h_S_
      = posV (effMask (cntI (V (Proc.devRef .tc main_arg1))) (V (Proc.devRef .tc main_arg1))) (V (Proc.devRef .tc main_arg0)) := rfl
  have hS : select (cmpf .une (subf (V (Proc.devRef .tc main_arg0)) (broadcastInDim S4096x32000 ![] bcast_S_S4096x32000 (constant (F := Ideal) S_ .f32 0x00000000#32))) (subf (V (Proc.devRef .tc main_arg0)) (broadcastInDim S4096x32000 ![] bcast_S_S4096x32000 (constant (F := Ideal) S_ .f32 0x00000000#32)))) (addf (V (Proc.devRef .tc main_arg0)) (broadcastInDim S4096x32000 ![] bcast_S_S4096x32000 (constant (F := Ideal) S_ .f32 0x00000000#32)))
      (addf (maximumf (V (Proc.devRef .tc main_arg0)) (broadcastInDim S4096x32000 ![] bcast_S_S4096x32000 (constant (F := Ideal) S_ .f32 0x00000000#32))) (Host.log1p (Host.exp (Host.negf (Host.absf (subf (V (Proc.devRef .tc main_arg0)) (broadcastInDim S4096x32000 ![] bcast_S_S4096x32000 (constant (F := Ideal) S_ .f32 0x00000000#32))))))))
      = softplusW (V (Proc.devRef .tc main_arg0)) := rfl
  have hN : Host.reduceAdd (select (effMask (cntI (V (Proc.devRef .tc main_arg1))) (V (Proc.devRef .tc main_arg1))) (broadcastInDim S4096x32000 ![] bcast_S_S4096x32000 (constant (F := Ideal) S_ .f32 0x00000000#32)) (softplusW (V (Proc.devRef .tc main_arg0))))
      (constant (F := Ideal) S_ .f32 0x00000000#32) reducesTo_S4096x32000_S4096_d1 h_S_
      = negV (effMask (cntI (V (Proc.devRef .tc main_arg1))) (V (Proc.devRef .tc main_arg1))) (V (Proc.devRef .tc main_arg0)) := rfl
  simp (disch := decide) only [after_cons, after_nil, nullary_result', unary_result', binary_result', ternary_result',
    nullary_result_ne', unary_result_ne', binary_result_ne', ternary_result_ne',
    TRef.toBuf, TRef.ofBuf, cast_cast, cast_eq, hC, hM, hP, hS, hN]
  rfl

set_option maxHeartbeats 4000000 in
/-- The arguments are written by no operation. -/
theorem kept_arg0 (V : Valuation τ sig (Elt Ideal)) : after (ops (F := Ideal)) V (Proc.devRef .tc main_arg0) = V (Proc.devRef .tc main_arg0) := by
  after_results_simp
set_option maxHeartbeats 4000000 in
theorem kept_arg1 (V : Valuation τ sig (Elt Ideal)) : after (ops (F := Ideal)) V (Proc.devRef .tc main_arg1) = V (Proc.devRef .tc main_arg1) := by
  after_results_simp

end Cert.ReferenceIdeal.HandValue

end
-- ==== Proof.RefRows.lean ====
/-
  The reference's result, row by row.

  At row `j`: the integer count is the number of marked classes of the row (a fold of widened one-bit words by integer
  addition); the effective mark of class `k` is 1 when the count is zero and the given mark otherwise; the positive and
  negative sums are `0 +` the sum over the classes of the selected terms; and the vector computation of the last lines
  is the scalar `perRowR` of the row's count and sums. The result is the mean over the 4096 rows.
-/
import proofs.«121508_j31688268709966_1_alg».proof.Proof.RefValue
import proofs.«121508_j31688268709966_1_alg».proof.Proof.RowLoss
import Idealize.ShloMosaic.Lib.IdealHost
import Idealize.ShloMosaic.Lib.Pipeline.Value
import Idealize.ShloMosaic.Lib.ValueIdx

noncomputable section

namespace Cert.ReferenceIdeal.HandRows

open Cert.ReferenceIdeal Cert.ReferenceIdeal.Gen Cert.ReferenceIdeal.HandValue Idealize.ShloMosaic Idealize.ShloMosaic.ValueIdx

/-- The row of a vector index. -/
abbrev row1 (j : S4096.Idx) : Fin 4096 := ⟨(j 0).val, (j 0).isLt⟩

theorem red : S4096x32000.Reduces [1] S4096 := by decide

/-- Inserting class `k` into row index `j` gives the array index `(j, k)`. -/
theorem lift_eq (j : S4096.Idx) (k : Fin 32000) : red.lift j k = ix2 (row1 j) k :=
  funext fun a => Fin.ext (by match a with | ⟨0, _⟩ => rfl | ⟨1, _⟩ => rfl)

theorem rowsOf_apply (w : BitVec 32) (j : S4096.Idx) : rowsOf w j = Ideal.ofBits .f32 w := broadcastInDim_scalar_apply _ _ j
theorem rowsOfI_apply (w : BitVec 32) (j : S4096.Idx) : rowsOfI w j = w := broadcastInDim_scalar_apply _ _ j
theorem allOf_apply (w : BitVec 32) (i : S4096x32000.Idx) : allOf w i = Ideal.ofBits .f32 w := broadcastInDim_scalar_apply _ _ i

set_option maxRecDepth 100000 in
/-- The integer count of row `j` is the number of its marked classes. -/
theorem cntI_apply (x1 : IVec S4096x32000 1) (j : S4096.Idx) :
    cntI x1 j = BitVec.ofNat 32 (Cert.RowLoss.marked fun k : Fin 32000 => x1 (ix2 (row1 j) k)) := by
  unfold cntI
  have h := Host.reduce_eq_fold_single (α := BitVec 32) (s := S4096x32000) (t := S4096) (a := (1 : Fin 2)) (u := S_) IntOp.addi
    (extui 32 x1 natLt_1_32) (constantI S_ 32 0#32) reducesTo_S4096x32000_S4096_d1 red h_S_ j
  refine h.trans ?_
  show (Finset.univ : Finset (Fin 32000)).fold IntOp.addi 0#32 (fun k : Fin 32000 => (x1 (red.lift j k)).setWidth 32) = _
  simp only [lift_eq]
  exact Cert.RowLoss.count_int (fun k : Fin 32000 => x1 (ix2 (row1 j) k))

/-- The effective mark of class `k` of row `j`. -/
theorem effMask_apply (cI : IVec S4096 32) (x1 : IVec S4096x32000 1) (j : S4096.Idx) (k : Fin 32000) :
    effMask cI x1 (ix2 (row1 j) k) = Scalar.select (IntOp.cmpi .eq (cI j) 0#32) 1#1 (x1 (ix2 (row1 j) k)) := by
  have h1 : broadcastInDim S4096x32000 ![0, 1] bcast_S4096x1_S4096x32000_0_1 (broadcastInDim S4096x1 ![0] bcast_S4096_S4096x1_0 (emptyI cI)) (ix2 (row1 j) k)
      = emptyI cI j := by
    refine (broadcastInDim_apply _ bcast_S4096x1_S4096x32000_0_1 _ (ix2 (row1 j) k) (ix2 (row1 j) (0 : Fin 1)) (fun a => ?_)).trans ?_
    · match a with
      | ⟨0, _⟩ => show (j 0).val = if (4096 : Nat) = 1 then 0 else (j 0).val; rw [if_neg (by decide)]
      | ⟨1, _⟩ => show 0 = if (1 : Nat) = 1 then 0 else k.val; rw [if_pos rfl]
    · refine broadcastInDim_apply _ bcast_S4096_S4096x1_0 _ (ix2 (row1 j) (0 : Fin 1)) j (fun a => ?_)
      match a with
      | ⟨0, _⟩ => show (j 0).val = if (4096 : Nat) = 1 then 0 else (j 0).val; rw [if_neg (by decide)]
  have h2 : broadcastInDim S4096x32000 ![] bcast_S_S4096x32000 (constantI S_ 1 1#1) (ix2 (row1 j) k) = 1#1 :=
    broadcastInDim_scalar_apply _ _ _
  show Scalar.select (broadcastInDim S4096x32000 ![0, 1] bcast_S4096x1_S4096x32000_0_1 (broadcastInDim S4096x1 ![0] bcast_S4096_S4096x1_0 (emptyI cI)) (ix2 (row1 j) k))
      (broadcastInDim S4096x32000 ![] bcast_S_S4096x32000 (constantI S_ 1 1#1) (ix2 (row1 j) k)) (x1 (ix2 (row1 j) k)) = _
  rw [h1, h2]
  show Scalar.select (IntOp.cmpi .eq (cI j) (rowsOfI 0#32 j)) 1#1 _ = _
  rw [rowsOfI_apply]

/-- The positive sum of row `j`. -/
theorem posV_apply (M : IVec S4096x32000 1) (x0 : FVec Ideal S4096x32000 .f32) (j : S4096.Idx) :
    posV M x0 j = Cert.RowLoss.zeroE + ∑ k : Fin 32000, Scalar.select (M (ix2 (row1 j) k)) (x0 (ix2 (row1 j) k)) Cert.RowLoss.zeroE := by
  show Ideal.hostReduceAdd reducesTo_S4096x32000_S4096_d1 (select M x0 (allOf 0x00000000#32)) (Ideal.ofBits .f32 0x00000000#32) j = _
  rw [Ideal.hostReduceAdd_single reducesTo_S4096x32000_S4096_d1 red]
  refine congrArg (Cert.RowLoss.zeroE + ·) ?_
  show (∑ k : Fin 32000, select M x0 (allOf 0x00000000#32) (red.lift j k)) = _
  refine Finset.sum_congr rfl fun k _ => ?_
  rw [lift_eq]
  show Scalar.select (M (ix2 (row1 j) k)) (x0 (ix2 (row1 j) k)) (allOf 0x00000000#32 (ix2 (row1 j) k)) = _
  rw [allOf_apply]

theorem softplusW_apply (x : FVec Ideal S4096x32000 .f32) (i : S4096x32000.Idx) : softplusW x i = Cert.RowLoss.softplusH (x i) := by
  show Scalar.select (Ideal.cmp .une (x i - allOf 0x00000000#32 i) (x i - allOf 0x00000000#32 i)) (x i + allOf 0x00000000#32 i)
      (max (x i) (allOf 0x00000000#32 i) + Ideal.log1p (Ideal.exp (-(max (x i - allOf 0x00000000#32 i) (-(x i - allOf 0x00000000#32 i)))))) = _
  rw [allOf_apply]
  rfl

/-- The negative sum of row `j`. -/
theorem negV_apply (M : IVec S4096x32000 1) (x0 : FVec Ideal S4096x32000 .f32) (j : S4096.Idx) :
    negV M x0 j = Cert.RowLoss.zeroE + ∑ k : Fin 32000, Scalar.select (M (ix2 (row1 j) k)) Cert.RowLoss.zeroE (Cert.RowLoss.softplusH (x0 (ix2 (row1 j) k))) := by
  show Ideal.hostReduceAdd reducesTo_S4096x32000_S4096_d1 (select M (allOf 0x00000000#32) (softplusW x0)) (Ideal.ofBits .f32 0x00000000#32) j = _
  rw [Ideal.hostReduceAdd_single reducesTo_S4096x32000_S4096_d1 red]
  refine congrArg (Cert.RowLoss.zeroE + ·) ?_
  show (∑ k : Fin 32000, select M (allOf 0x00000000#32) (softplusW x0) (red.lift j k)) = _
  refine Finset.sum_congr rfl fun k _ => ?_
  rw [lift_eq]
  show Scalar.select (M (ix2 (row1 j) k)) (allOf 0x00000000#32 (ix2 (row1 j) k)) (softplusW x0 (ix2 (row1 j) k)) = _
  rw [allOf_apply, softplusW_apply]

theorem softplusV_apply (x : FVec Ideal S4096 .f32) (j : S4096.Idx) : softplusV x j = Cert.RowLoss.softplusH (x j) := by
  show Scalar.select (Ideal.cmp .une (x j - rowsOf 0x00000000#32 j) (x j - rowsOf 0x00000000#32 j)) (x j + rowsOf 0x00000000#32 j)
      (max (x j) (rowsOf 0x00000000#32 j) + Ideal.log1p (Ideal.exp (-(max (x j - rowsOf 0x00000000#32 j) (-(x j - rowsOf 0x00000000#32 j)))))) = _
  rw [rowsOf_apply]
  rfl

/-- The count that divides the positive sum, at row `j`. -/
theorem effCnt_apply (cI : IVec S4096 32) (j : S4096.Idx) :
    effCnt cI j = Scalar.select (IntOp.cmpi .eq (cI j) 0#32) 32000#32 (cI j) := by
  show Scalar.select (IntOp.cmpi .eq (cI j) (rowsOfI 0#32 j)) (broadcastInDim S4096 ![] bcast_S_S4096 (id (constantI S_ 32 32000#32)) j) (cI j) = _
  rw [rowsOfI_apply, broadcastInDim_scalar_apply]
  rfl

/-- The reference's result as the mean of the scalar row losses. -/
theorem refVal_apply (x0 : FVec Ideal S4096x32000 .f32) (x1 : IVec S4096x32000 1) (i : S_.Idx) :
    refVal x0 x1 i
      = Ideal.div (Cert.RowLoss.zeroE + ∑ j : S4096.Idx, Cert.RowLoss.perRowR (cntI x1 j) (posV (effMask (cntI x1) x1) x0 j) (negV (effMask (cntI x1) x1) x0 j))
          (Ideal.ofBits .f32 0x45800000#32) := by
  unfold refVal refTail
  generalize cntI x1 = cI
  generalize posV (effMask cI x1) x0 = P
  generalize negV (effMask cI x1) x0 = N
  show Ideal.div (Ideal.hostReduceAdd reducesTo_S4096_S_d0
      (addf (softplusV (Host.negf (scoreV cI P)))
        (select (cmpi .sgt (negCntV cI) (rowsOfI 0#32)) (Host.divf N (sitofp .f32 (maxsi (negCntV cI) (rowsOfI 1#32)))) (rowsOf 0x00000000#32)))
      (Ideal.ofBits .f32 0x00000000#32) i) (Ideal.ofBits .f32 0x45800000#32) = _
  rw [Ideal.hostReduceAdd_total reducesTo_S4096_S_d0 (fun b => b.elim0)]
  refine congrArg (fun s => Ideal.div (Cert.RowLoss.zeroE + s) (Ideal.ofBits .f32 0x45800000#32)) (Finset.sum_congr rfl fun j _ => ?_)
  show softplusV (Host.negf (scoreV cI P)) j
      + Scalar.select (IntOp.cmpi .sgt (IntOp.subi (rowsOfI 32000#32 j) (effCnt cI j)) (rowsOfI 0#32 j))
          (Ideal.div (N j) ((((IntOp.maxsi (IntOp.subi (rowsOfI 32000#32 j) (effCnt cI j)) (rowsOfI 1#32 j)).toInt : ℝ)) : EReal)) (rowsOf 0x00000000#32 j) = _
  rw [softplusV_apply]
  show Cert.RowLoss.softplusH (-(Ideal.div (P j) ((((effCnt cI j).toInt : ℝ)) : EReal))) + _ = _
  simp only [rowsOfI_apply, rowsOf_apply, effCnt_apply]
  rfl

end Cert.ReferenceIdeal.HandRows

end
-- ==== Proof.Bridge.lean ====
/-
  The two programs compute one number.

  Row by row, with `N` the number of marked classes of the row (at most 32000): the kernel's float count is `N`, the
  reference's integer count is the 32-bit word of `N`; on a row with `N = 0` the reference sums every logit (its effective
  marks are all ones), which is the kernel's total; on a row with `N > 0` the effective marks are the given ones, the
  widened mark differs from zero exactly when the mark is one, and the two spellings of `softplus` agree — so the positive
  and negative sums agree and `perRow_bridge` applies. The mean over the 4096 rows is then the same.
-/
import proofs.«121508_j31688268709966_1_alg».proof.Proof.KernelLoss
import proofs.«121508_j31688268709966_1_alg».proof.Proof.RefRows

noncomputable section

namespace Cert.Bridge

open Idealize.ShloMosaic Idealize.ShloMosaic.TcCoe Idealize.SL.Sem Idealize.ShloMosaic.StableHlo Cert.RowLoss
open Idealize.ShloMosaic.ValueIdx (ix2)

abbrev SArr : Shape := ⟨2, ![4096, 32000]⟩

/-- The 32-bit word of a count between 1 and 32000 is not zero. -/
theorem cmpi_eq_ofNat_pos (N : ℕ) (hN : N ≤ 32000) (h : N ≠ 0) : IntOp.cmpi .eq (BitVec.ofNat 32 N) 0#32 = 0#1 := by
  unfold IntOp.cmpi
  have : (BitVec.ofNat 32 N == 0#32) = false := by
    rw [beq_eq_false_iff_ne]
    intro hc
    have := congrArg BitVec.toNat hc
    rw [BitVec.toNat_ofNat, Nat.mod_eq_of_lt (by omega)] at this
    exact h (by simpa using this)
  simp [this]

/-- ONE ROW: the float-counting loss of the row's four sums is the integer-counting loss of the row's count and two sums. -/
theorem row_eq (x0 : SArr.Idx → EReal) (x1 : SArr.Idx → BitVec 1) (r : Fin 4096) :
    perRowK (∑ k : Fin 32000, Cert.KernelIdeal.Rows.markTerm ((x1 (ix2 r k)).setWidth 32))
        (∑ k : Fin 32000, Cert.KernelIdeal.Rows.posTerm ((x1 (ix2 r k)).setWidth 32) (x0 (ix2 r k)))
        (∑ k : Fin 32000, Cert.KernelIdeal.Rows.negTerm ((x1 (ix2 r k)).setWidth 32) (x0 (ix2 r k)))
        (∑ k : Fin 32000, x0 (ix2 r k))
      = perRowR (BitVec.ofNat 32 (marked fun k : Fin 32000 => x1 (ix2 r k)))
          (zeroE + ∑ k : Fin 32000, Scalar.select (Scalar.select (IntOp.cmpi .eq (BitVec.ofNat 32 (marked fun k : Fin 32000 => x1 (ix2 r k))) 0#32) 1#1 (x1 (ix2 r k))) (x0 (ix2 r k)) zeroE)
          (zeroE + ∑ k : Fin 32000, Scalar.select (Scalar.select (IntOp.cmpi .eq (BitVec.ofNat 32 (marked fun k : Fin 32000 => x1 (ix2 r k))) 0#32) 1#1 (x1 (ix2 r k))) zeroE (softplusH (x0 (ix2 r k)))) := by
  have hN : marked (fun k : Fin 32000 => x1 (ix2 r k)) ≤ 32000 := by
    unfold marked
    exact (Finset.card_filter_le _ _).trans (by simp)
  have hc : ∑ k : Fin 32000, Cert.KernelIdeal.Rows.markTerm ((x1 (ix2 r k)).setWidth 32)
      = ((marked (fun k : Fin 32000 => x1 (ix2 r k)) : ℝ) : EReal) :=
    count_float (fun k : Fin 32000 => x1 (ix2 r k))
  rw [hc]
  generalize marked (fun k : Fin 32000 => x1 (ix2 r k)) = N at hN ⊢
  refine perRow_bridge N hN _ _ _ _ _ (fun h => ?_) (fun h => ?_) (fun h => ?_)
  · subst h
    rw [show IntOp.cmpi .eq (BitVec.ofNat 32 0) 0#32 = 1#1 from by decide]
    simp only [Cert.RowLoss.select_one, zeroE_eq, zero_add]
  · rw [cmpi_eq_ofNat_pos N hN h]
    simp only [Cert.RowLoss.select_zero]
    rw [zeroE_eq, zero_add]
    refine Finset.sum_congr rfl fun k _ => ?_
    unfold Cert.KernelIdeal.Rows.posTerm
    rw [cmpi_ne_widen, zeroE_eq]
  · rw [cmpi_eq_ofNat_pos N hN h]
    simp only [Cert.RowLoss.select_zero]
    rw [zeroE_eq, zero_add]
    refine Finset.sum_congr rfl fun k _ => ?_
    unfold Cert.KernelIdeal.Rows.negTerm
    rw [cmpi_ne_widen, softplusK_eq, zeroE_eq]

/-- THE RESULTS AGREE: the kernel's result and the reference's are one function of the two arguments. -/
theorem result_eq (x0 : SArr.Idx → EReal) (x1 : SArr.Idx → BitVec 1) :
    Cert.KernelIdeal.Tail.kernelVal x0 x1 = Cert.ReferenceIdeal.HandValue.refVal x0 x1 := by
  funext i
  unfold Cert.KernelIdeal.Tail.kernelVal
  rw [Cert.KernelIdeal.Loss.tail_apply]
  refine Eq.trans ?_ (Cert.ReferenceIdeal.HandRows.refVal_apply x0 x1 i).symm
  refine congrArg (fun s => Ideal.div (zeroE + s) (Ideal.ofBits .f32 0x45800000#32)) (Finset.sum_congr rfl fun j _ => ?_)
  rw [Cert.ReferenceIdeal.HandRows.posV_apply, Cert.ReferenceIdeal.HandRows.negV_apply]
  simp only [Cert.ReferenceIdeal.HandRows.effMask_apply, Cert.ReferenceIdeal.HandRows.cntI_apply]
  exact row_eq x0 x1 ⟨(j 0).val, (j 0).isLt⟩

/-- THE REFERENCE'S RUN, READ: every weakly fair execution terminates with the result buffer at `refVal` of the arguments
    and the arguments unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v28)
          = Cert.ReferenceIdeal.HandValue.refVal (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1) :=
  (θ_run Cert.ReferenceIdeal.defs _ _).mono (fun _ h c =>
      ⟨(h c Cert.ReferenceIdeal.main_v28).trans (Cert.ReferenceIdeal.HandValue.value _),
       (h c Cert.ReferenceIdeal.main_arg0).trans (Cert.ReferenceIdeal.HandValue.kept_arg0 _),
       (h c Cert.ReferenceIdeal.main_arg1).trans (Cert.ReferenceIdeal.HandValue.kept_arg1 _)⟩)
    (Cert.ReferenceIdeal.Hand.run_all (F := Ideal) m ρ)

end Cert.Bridge

end
-- ==== Proof.lean ====
/-
  A masked-candidate loss over [4096, 32000] logits: per row, `softplus(-mean of the candidate logits)` plus the mean of
  `softplus` over the non-candidates, a row with no candidate treating every class as one; the result is the mean over
  the rows.

  The kernel streams the logits and the marks once through a grid of 32 blocks of 128 rows and leaves four per-row
  sums (the count of marks as a float, the marked logits, `softplus` of the unmarked logits, all logits); host lines
  after the grid combine them row by row and average. The reference counts the marks in 32-bit integers, rebuilds an
  effective mask, and sums with it. On the extended reals the two are one function of the arguments:
  `Cert.Bridge.result_eq` (row by row through `Cert.RowLoss.perRow_bridge`: a count `N ≤ 32000` read as a float or as an
  integer gives the same divisors and the same tests; on a row with no candidate the reference's sum over the
  all-ones mask is the kernel's total). No law used here needs finiteness of the inputs, so the precondition is not
  opened. The kernel's run is its frame run with the four output columns read as whole-array functions and the host
  lines after the grid applied to them; the reference's run is its 79 operations applied in order.
-/
import proofs.«121508_j31688268709966_1_alg».proof.Defs
import proofs.«121508_j31688268709966_1_alg».proof.Proof.Gen.Kernel
import proofs.«121508_j31688268709966_1_alg».proof.Proof.Gen.Kernel.Skeleton
import proofs.«121508_j31688268709966_1_alg».proof.Proof.Gen.Kernel.Launch
import proofs.«121508_j31688268709966_1_alg».proof.Proof.Gen.Kernel.Points
import proofs.«121508_j31688268709966_1_alg».proof.Proof.Gen.Kernel.Frame
import proofs.«121508_j31688268709966_1_alg».proof.Proof.Gen.KernelIdeal
import proofs.«121508_j31688268709966_1_alg».proof.Proof.Gen.KernelIdeal.Skeleton
import proofs.«121508_j31688268709966_1_alg».proof.Proof.Gen.KernelIdeal.Launch
import proofs.«121508_j31688268709966_1_alg».proof.Proof.Gen.KernelIdeal.Points
import proofs.«121508_j31688268709966_1_alg».proof.Proof.Gen.KernelIdeal.Frame
import proofs.«121508_j31688268709966_1_alg».proof.Proof.Gen.ReferenceIdeal
import proofs.«121508_j31688268709966_1_alg».proof.Proof.Gen.Pre_finite_inputs
import proofs.«121508_j31688268709966_1_alg».proof.Proof.Bridge
import Idealize.ShloMosaic.Adequacy
import Idealize.ShloMosaic.Init

noncomputable section

namespace Cert.Proof

open Idealize.ShloMosaic Idealize.SL.Sem Cert.Kernel

/-- The word-level kernel runs and keeps its arguments. -/
theorem frame_kernel : Cert.frame_Kernel := fun m ρ _ => Cert.Kernel.Gen.frame m ρ
/-- So does the kernel read on the extended reals. -/
theorem frame_kernelIdeal : Cert.frame_KernelIdeal := fun m ρ _ => Cert.KernelIdeal.Gen.frame m ρ
/-- The reference runs and keeps its arguments: its run with the result dropped. -/
theorem frame_reference : Cert.frame_ReferenceIdeal := fun m ρ _ =>
  (θ_run Cert.ReferenceIdeal.defs _ _).mono (fun _ h c => (h c).2) (Cert.Bridge.ref_run m ρ)

/-- From memories agreeing on the arguments both programs end at one value: the kernel's at `kernelVal` of its
    arguments, the reference's at `refVal` of the same arrays, and these are one function. -/
theorem algebraic : Cert.algebraic_KernelIdeal_ReferenceIdeal := by
  intro m ρ m' ρ' _ hagree
  refine ⟨_, Cert.KernelIdeal.Tail.run m ρ, ?_⟩
  refine (θ_run Cert.ReferenceIdeal.defs _ _).mono (fun _ h c => ⟨(h c).1.trans ?_, (h c).2⟩) (Cert.Bridge.ref_run m' ρ')
  rw [(hagree c).1, (hagree c).2]
  exact (Cert.Bridge.result_eq _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
